-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S64x1 .f32) (main_arg10 : FVec F S1 .f32) (main_v33 : IVec S_ 1) : IVec S_ 1 :=
  let main_v34 : FVec F S64x1 .f32 := Host.absf main_arg9
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S128 .f32) (main_arg7 : FVec F S128x64 .f32) (main_arg8 : FVec F S64 .f32) (main_arg9 : FVec F S64x1 .f32) (main_arg10 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x64 .f32) (main_arg8 : FVec F S64 .f32) (main_arg9 : FVec F S64x1 .f32) (main_arg10 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S1x64 : Shape := ⟨2, ![1, 64]⟩
abbrev S1x1 : Shape := ⟨2, ![1, 1]⟩
abbrev S512x64 : Shape := ⟨2, ![512, 64]⟩

abbrev nBuf : Space → Nat
  | .hbm => 103
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x1, .f32⟩
  | .hbm, ⟨10, _⟩ => ⟨S1, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S100000, .i32⟩
  | .hbm, ⟨16, _⟩ => ⟨S1700000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x128, .f32⟩
  | .hbm, ⟨75, _⟩ => ⟨S1700000x1, .f32⟩
  | .hbm, ⟨76, _⟩ => ⟨S1700000x128, .f32⟩
  | .hbm, ⟨77, _⟩ => ⟨S1700000x128, .f32⟩
  | .hbm, ⟨78, _⟩ => ⟨S_, .f32⟩
  | .hbm, ⟨79, _⟩ => ⟨S100000x128, .f32⟩
  | .hbm, ⟨80, _⟩ => ⟨S1700000x1, .i32⟩
  | .hbm, ⟨81, _⟩ => ⟨S100000x128, .f32⟩
  | .hbm, ⟨82, _⟩ => ⟨S1x128, .f32⟩
  | .hbm, ⟨83, _⟩ => ⟨S100000x128, .f32⟩
  | .hbm, ⟨84, _⟩ => ⟨S_, .f32⟩
  | .hbm, ⟨85, _⟩ => ⟨S512x128, .f32⟩
  | .hbm, ⟨86, _⟩ => ⟨S100000x1, .i32⟩
  | .hbm, ⟨87, _⟩ => ⟨S512x128, .f32⟩
  | .hbm, ⟨88, _⟩ => ⟨S_, .f32⟩
  | .hbm, ⟨89, _⟩ => ⟨S100000, .f32⟩
  | .hbm, ⟨90, _⟩ => ⟨S_, .f32⟩
  | .hbm, ⟨91, _⟩ => ⟨S512, .f32⟩
  | .hbm, ⟨92, _⟩ => ⟨S100000x1, .i32⟩
  | .hbm, ⟨93, _⟩ => ⟨S512, .f32⟩
  | .hbm, ⟨94, _⟩ => ⟨S_, .f32⟩
  | .hbm, ⟨95, _⟩ => ⟨S512, .f32⟩
  | .hbm, ⟨96, _⟩ => ⟨S512, .f32⟩
  | .hbm, ⟨97, _⟩ => ⟨S512x1, .f32⟩
  | .hbm, ⟨98, _⟩ => ⟨S512x128, .f32⟩
  | .hbm, ⟨99, _⟩ => ⟨S512x128, .f32⟩
  | .hbm, ⟨100, _⟩ => ⟨S1x64, .f32⟩
  | .hbm, ⟨101, _⟩ => ⟨S1x1, .f32⟩
  | .hbm, ⟨102, _⟩ => ⟨S512x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S512x128, .f32⟩
  | .local _ .vmem, ⟨17, _⟩ => ⟨S128x64, .f32⟩
  | .local _ .vmem, ⟨18, _⟩ => ⟨S1x64, .f32⟩
  | .local _ .vmem, ⟨19, _⟩ => ⟨S64x1, .f32⟩
  | .local _ .vmem, ⟨20, _⟩ => ⟨S1x1, .f32⟩
  | .local _ .vmem, ⟨21, _⟩ => ⟨S512x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_8 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_11 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_12 : Ref sig .tc := ⟨.hbm, 88, rfl⟩
abbrev main_v63 : Ref sig .tc := ⟨.hbm, 89, rfl⟩
abbrev main_cst_13 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_14 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg4_0 : Ref sig .tc := ⟨.vmem, 20, rfl⟩
abbrev cc3_stg5_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem1_0 : DmaSem sig := 17
abbrev cc3_sem2_0 : DmaSem sig := 18
abbrev cc3_sem3_0 : DmaSem sig := 19
abbrev cc3_sem4_0 : DmaSem sig := 20
abbrev cc3_sem5_0 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S512x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  shapeCasts_S64_S1x64 : S64.ShapeCasts S1x64
  shapeCasts_S1_S1x1 : S1.ShapeCasts S1x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x64_S512x64_1_0_0_1_n_n_wf : DotDims.WF S512x128 S128x64 S512x64 [1] [0] [0] [1] [] []
  dot_S512x64_S64x1_S512x1_1_0_0_1_n_n_wf : DotDims.WF S512x64 S64x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x128.size a ≤ S512x128.size a
  hwx3_0 : ∀ i : grid3.Coords, EltTy.bits .f32 = 32 ∨ (Rect.block (s := S512x128) S512x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x1.size a ≤ S64x1.size a
  hwx3_3 : ∀ i : grid3.Coords, EltTy.bits .f32 = 32 ∨ (Rect.block (s := S64x1) S64x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S512x1.size a ≤ S512x1.size a
  hwx3_5 : ∀ i : grid3.Coords, EltTy.bits .f32 = 32 ∨ (Rect.block (s := S512x1) S512x1.size (cc3_transform_5 i) (hinb3_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v71) S512x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v72) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S64x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v73) S1x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v74) S512x1.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S512x64 : Shape := ⟨2, ![512, 64]⟩
abbrev S1x64 : Shape := ⟨2, ![1, 64]⟩
abbrev S1x1 : Shape := ⟨2, ![1, 1]⟩

abbrev nBuf : Space → Nat
  | .hbm => 167
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S64x1, .f32⟩
  | 10 => ⟨S1, .f32⟩
  | 11 => ⟨S1x1600000, .i32⟩
  | 12 => ⟨S1600000, .i32⟩
  | 13 => ⟨S1x1600000, .i32⟩
  | 14 => ⟨S1600000, .i32⟩
  | 15 => ⟨S100000x128, .f32⟩
  | 16 => ⟨S100000, .i32⟩
  | 17 => ⟨S1700000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x128, .f32⟩
  | 57 => ⟨S1700000x1, .f32⟩
  | 58 => ⟨S1700000x128, .f32⟩
  | 59 => ⟨S1700000x128, .f32⟩
  | 60 => ⟨S_, .f32⟩
  | 61 => ⟨S100000x128, .f32⟩
  | 62 => ⟨S1700000x1, .i32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S_, .f32⟩
  | 69 => ⟨S100000x128, .f32⟩
  | 70 => ⟨S100000x128, .i1⟩
  | 71 => ⟨S_, .f32⟩
  | 72 => ⟨S100000x128, .f32⟩
  | 73 => ⟨S100000x128, .f32⟩
  | 74 => ⟨S100000x128, .f32⟩
  | 75 => ⟨S100000x128, .f32⟩
  | 76 => ⟨S100000, .i32⟩
  | 77 => ⟨S1700000, .i32⟩
  | 78 => ⟨S1700000, .i32⟩
  | 79 => ⟨S_, .f32⟩
  | 80 => ⟨S1700000, .f32⟩
  | 81 => ⟨S_, .f32⟩
  | 82 => ⟨S100000, .f32⟩
  | 83 => ⟨S1700000x1, .i32⟩
  | 84 => ⟨S100000, .f32⟩
  | 85 => ⟨S_, .f32⟩
  | 86 => ⟨S100000, .f32⟩
  | 87 => ⟨S100000, .f32⟩
  | 88 => ⟨S100000, .f32⟩
  | 89 => ⟨S_, .i32⟩
  | 90 => ⟨S1700000, .i32⟩
  | 91 => ⟨S1700000, .i1⟩
  | 92 => ⟨S_, .i32⟩
  | 93 => ⟨S1700000, .i32⟩
  | 94 => ⟨S1700000, .i32⟩
  | 95 => ⟨S1700000, .i32⟩
  | 96 => ⟨S1700000x1, .i32⟩
  | 97 => ⟨S1700000, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000, .f32⟩
  | 107 => ⟨S1700000, .f32⟩
  | 108 => ⟨S_, .i32⟩
  | 109 => ⟨S1700000, .i32⟩
  | 110 => ⟨S1700000, .i1⟩
  | 111 => ⟨S_, .i32⟩
  | 112 => ⟨S1700000, .i32⟩
  | 113 => ⟨S1700000, .i32⟩
  | 114 => ⟨S1700000, .i32⟩
  | 115 => ⟨S1700000x1, .i32⟩
  | 116 => ⟨S1700000x128, .f32⟩
  | 117 => ⟨S1700000x1, .f32⟩
  | 118 => ⟨S1700000x128, .f32⟩
  | 119 => ⟨S1700000x128, .f32⟩
  | 120 => ⟨S_, .f32⟩
  | 121 => ⟨S100000x128, .f32⟩
  | 122 => ⟨S1700000x1, .i32⟩
  | 123 => ⟨S100000x128, .f32⟩
  | 124 => ⟨S1x128, .f32⟩
  | 125 => ⟨S100000x128, .f32⟩
  | 126 => ⟨S100000x128, .f32⟩
  | 127 => ⟨S_, .f32⟩
  | _ => ⟨S100000x128, .f32⟩

abbrev hbmTy0_1 (i : Nat) : BufTy := match i % 128 with
  | 0 => ⟨S_, .f32⟩
  | 1 => ⟨S100000x128, .f32⟩
  | 2 => ⟨S100000x128, .i1⟩
  | 3 => ⟨S_, .f32⟩
  | 4 => ⟨S100000x128, .f32⟩
  | 5 => ⟨S100000x128, .f32⟩
  | 6 => ⟨S100000x128, .f32⟩
  | 7 => ⟨S_, .f32⟩
  | 8 => ⟨S512x128, .f32⟩
  | 9 => ⟨S100000x1, .i32⟩
  | 10 => ⟨S512x128, .f32⟩
  | 11 => ⟨S_, .f32⟩
  | 12 => ⟨S100000, .f32⟩
  | 13 => ⟨S_, .f32⟩
  | 14 => ⟨S512, .f32⟩
  | 15 => ⟨S100000x1, .i32⟩
  | 16 => ⟨S512, .f32⟩
  | 17 => ⟨S_, .f32⟩
  | 18 => ⟨S512, .f32⟩
  | 19 => ⟨S512, .f32⟩
  | 20 => ⟨S512x1, .f32⟩
  | 21 => ⟨S512x128, .f32⟩
  | 22 => ⟨S512x128, .f32⟩
  | 23 => ⟨S512x64, .f32⟩
  | 24 => ⟨S1x64, .f32⟩
  | 25 => ⟨S512x64, .f32⟩
  | 26 => ⟨S512x64, .f32⟩
  | 27 => ⟨S_, .f32⟩
  | 28 => ⟨S_, .f32⟩
  | 29 => ⟨S512x64, .f32⟩
  | 30 => ⟨S512x64, .i1⟩
  | 31 => ⟨S_, .f32⟩
  | 32 => ⟨S512x64, .f32⟩
  | 33 => ⟨S512x64, .f32⟩
  | 34 => ⟨S512x64, .f32⟩
  | 35 => ⟨S512x1, .f32⟩
  | 36 => ⟨S1x1, .f32⟩
  | 37 => ⟨S512x1, .f32⟩
  | 38 => ⟨S512x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_8 : Ref sig .tc := ⟨.hbm, 67, rfl⟩
abbrev main_call0_cst : Ref sig .tc := ⟨.hbm, 68, rfl⟩
abbrev main_call0_v0 : Ref sig .tc := ⟨.hbm, 69, rfl⟩
abbrev main_call0_v1 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_9 : Ref sig .tc := ⟨.hbm, 79, rfl⟩
abbrev main_v51 : Ref sig .tc := ⟨.hbm, 80, rfl⟩
abbrev main_cst_10 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_11 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_c_12 : Ref sig .tc := ⟨.hbm, 89, rfl⟩
abbrev main_v58 : Ref sig .tc := ⟨.hbm, 90, rfl⟩
abbrev main_v59 : Ref sig .tc := ⟨.hbm, 91, rfl⟩
abbrev main_c_13 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_c_14 : Ref sig .tc := ⟨.hbm, 98, rfl⟩
abbrev main_v65 : Ref sig .tc := ⟨.hbm, 99, rfl⟩
abbrev main_v66 : Ref sig .tc := ⟨.hbm, 100, rfl⟩
abbrev main_c_15 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_c_16 : Ref sig .tc := ⟨.hbm, 108, rfl⟩
abbrev main_v73 : Ref sig .tc := ⟨.hbm, 109, rfl⟩
abbrev main_v74 : Ref sig .tc := ⟨.hbm, 110, rfl⟩
abbrev main_c_17 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_cst_18 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_19 : Ref sig .tc := ⟨.hbm, 127, rfl⟩
abbrev main_call1_cst : Ref sig .tc := ⟨.hbm, 128, rfl⟩
abbrev main_call1_v0 : Ref sig .tc := ⟨.hbm, 129, rfl⟩
abbrev main_call1_v1 : Ref sig .tc := ⟨.hbm, 130, rfl⟩
abbrev main_call1_v2 : Ref sig .tc := ⟨.hbm, 131, rfl⟩
abbrev main_call1_v3 : Ref sig .tc := ⟨.hbm, 132, rfl⟩
abbrev main_call1_v4 : Ref sig .tc := ⟨.hbm, 133, rfl⟩
abbrev main_v89 : Ref sig .tc := ⟨.hbm, 134, rfl⟩
abbrev main_cst_20 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_cst_21 : Ref sig .tc := ⟨.hbm, 139, rfl⟩
abbrev main_v93 : Ref sig .tc := ⟨.hbm, 140, rfl⟩
abbrev main_cst_22 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_cst_23 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_cst_24 : Ref sig .tc := ⟨.hbm, 155, rfl⟩
abbrev main_call2_cst : Ref sig .tc := ⟨.hbm, 156, rfl⟩
abbrev main_call2_v0 : Ref sig .tc := ⟨.hbm, 157, rfl⟩
abbrev main_call2_v1 : Ref sig .tc := ⟨.hbm, 158, rfl⟩
abbrev main_call2_v2 : Ref sig .tc := ⟨.hbm, 159, rfl⟩
abbrev main_call2_v3 : Ref sig .tc := ⟨.hbm, 160, rfl⟩
abbrev main_call2_v4 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  bcast_S_S512x64 : S_.BroadcastsInDim S512x64 (![] : Fin 0 → Fin S512x64.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x64_S512x64_1_0_0_1_n_n_wf : DotDims.WF S512x128 S128x64 S512x64 [1] [0] [0] [1] [] []
  dot_S512x64_S64x1_S512x1_1_0_0_1_n_n_wf : DotDims.WF S512x64 S64x1 S512x1 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

class Facts : Prop extends Facts₀ where

variable [Facts]
-- ==== Proof.KernelRun.lean ====
/-
  The idealized kernel's run, with every buffer named at the end.

  The program is four pipelined regions among four stretches of host operations.  Its generated frame follows the
  buffer contents from the launch memory through each stretch and each region to the last boundary's contents
  (`Gen.W8`), and states only that the argument arrays end as launched.  The same launch, read at EVERY unscoped buffer
  of a core, says more: after any weakly fair execution each such buffer holds what the last boundary's contents give
  it — in particular the result buffer.
-/
import proofs.«164700_j30726196035937_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at
    the contents of the last segment boundary. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The result buffer and the argument arrays after the run. -/
theorem run_result : θ_run defs (onTc (τ := τ) (main (F := F))) ⟨m, fun _ => 0, ρ⟩ (fun r => ∀ c : Dev nD,
      r.2.mem ((c.tc : Thread nD τ).loc main_v74) = W8 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
      ⟨h c _ (mem_uc main_v74 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)
    (run_all m ρ)

end Cert.KernelIdeal.Run

end
-- ==== Proof.Spec.lean ====
/-
  What each of the kernel's four regions computes, as a function of whole arrays.

  The network is two graph-convolution layers, a mean pool over graphs and a two-layer perceptron.  The kernel
  computes the dense pieces in four pipelined regions and leaves the edge aggregation and the pooling to host
  operations; the reference does everything with host operations.  The dense pieces are

    * `dense x w`              : the product x · w of a [100000,128] array with a [128,128] matrix;
    * `act a b`                : a + b (the bias row b laid under every row), then the leaky rectifier
                                 v ↦ v where v ≥ 0 and 0.01 · v elsewhere;
    * `actDense a b w`         : `dense (act a b) w`;
    * `head g w3 b3 w4 b4`     : leaky (g · w3 + b3) · w4 + b4 on the pooled [512,128] array.

  They are spelt with the host operations and the dimension records of the reference, so that the kernel's result,
  once each region is read as one of these functions, is the reference's term.
-/
import proofs.«164700_j30726196035937_1_alg».proof.Proof.Gen.ReferenceIdeal

noncomputable section

namespace Cert.Spec

open Idealize.ShloMosaic Cert.ReferenceIdeal Cert.ReferenceIdeal.Facts₀

variable {F : FTy → Type} [FloatOps F] [Cert.ReferenceIdeal.Facts]

/-- The leaky rectifier on node features: v where v ≥ 0, 0.01 · v elsewhere. -/
def leakyN (x : (⟨S100000x128, .f32⟩ : BufTy).Contents (Elt F)) : (⟨S100000x128, .f32⟩ : BufTy).Contents (Elt F) :=
  select (cmpf .oge x (broadcastInDim S100000x128 ![] bcast_S_S100000x128 (constant S_ .f32 0x00000000#32)))
    x (mulf (broadcastInDim S100000x128 ![] bcast_S_S100000x128 (constant S_ .f32 0x3C23D70A#32)) x)

/-- The leaky rectifier on the perceptron's hidden layer. -/
def leakyG (x : (⟨S512x64, .f32⟩ : BufTy).Contents (Elt F)) : (⟨S512x64, .f32⟩ : BufTy).Contents (Elt F) :=
  select (cmpf .oge x (broadcastInDim S512x64 ![] bcast_S_S512x64 (constant S_ .f32 0x00000000#32)))
    x (mulf (broadcastInDim S512x64 ![] bcast_S_S512x64 (constant S_ .f32 0x3C23D70A#32)) x)

/-- x · w for node features x and a square weight matrix w. -/
def dense (x : (⟨S100000x128, .f32⟩ : BufTy).Contents (Elt F)) (w : (⟨S128x128, .f32⟩ : BufTy).Contents (Elt F)) :
    (⟨S100000x128, .f32⟩ : BufTy).Contents (Elt F) :=
  Host.dotGeneral dot_S100000x128_S128x128_S100000x128_1_0_0_1_n_n none x w

/-- leaky (a + b), the bias row b under every row of a. -/
def act (a : (⟨S100000x128, .f32⟩ : BufTy).Contents (Elt F)) (b : (⟨S1x128, .f32⟩ : BufTy).Contents (Elt F)) :
    (⟨S100000x128, .f32⟩ : BufTy).Contents (Elt F) :=
  leakyN (addf a (broadcastInDim S100000x128 ![0, 1] bcast_S1x128_S100000x128_0_1 b))

/-- leaky (a + b) · w. -/
def actDense (a : (⟨S100000x128, .f32⟩ : BufTy).Contents (Elt F)) (b : (⟨S1x128, .f32⟩ : BufTy).Contents (Elt F))
    (w : (⟨S128x128, .f32⟩ : BufTy).Contents (Elt F)) : (⟨S100000x128, .f32⟩ : BufTy).Contents (Elt F) :=
  dense (act a b) w

/-- The perceptron on the pooled features: leaky (g · w3 + b3) · w4 + b4. -/
def head (g : (⟨S512x128, .f32⟩ : BufTy).Contents (Elt F)) (w3 : (⟨S128x64, .f32⟩ : BufTy).Contents (Elt F))
    (b3 : (⟨S1x64, .f32⟩ : BufTy).Contents (Elt F)) (w4 : (⟨S64x1, .f32⟩ : BufTy).Contents (Elt F))
    (b4 : (⟨S1x1, .f32⟩ : BufTy).Contents (Elt F)) : (⟨S512x1, .f32⟩ : BufTy).Contents (Elt F) :=
  addf (Host.dotGeneral dot_S512x64_S64x1_S512x1_1_0_0_1_n_n none
      (leakyG (addf (Host.dotGeneral dot_S512x128_S128x64_S512x64_1_0_0_1_n_n none g w3)
        (broadcastInDim S512x64 ![0, 1] bcast_S1x64_S512x64_0_1 b3))) w4)
    (broadcastInDim S512x1 ![0, 1] bcast_S1x1_S512x1_0_1 b4)

end Cert.Spec

end
-- ==== Proof.LibPlainDot.lean ====
/-
  A plain matrix product read at an index.

  For the dimension numbers of an `M×K` by `K×N` product (contract the left operand's columns with the right operand's
  rows, no batch axis), the left operand's index at result index `(p, q)` and contraction position `k` is `(p, k)` and the
  right operand's is `(k, q)`. So, at the exact values, the vector unit's product into the zero accumulator and the
  host's `dot_general` are both, at `(p, q)`, the sum over `k` of `l (p, k) · r (k, q)`.
-/
import Idealize.ShloMosaic.Lib.ValueIdx
import Idealize.ShloMosaic.PureOps.Ideal.Laws

noncomputable section

open scoped BigOperators

namespace Cert.PlainDot

open Idealize.ShloMosaic Idealize.ShloMosaic.ValueIdx

variable (M K N : ℕ)

/-- One axis is contracted, of extent `K`. -/
theorem contr_rank : (DotDims.plain M K N).contr.rank = 1 := rfl
theorem contr_size : (DotDims.plain M K N).contr.size ⟨0, by rw [contr_rank]; exact Nat.one_pos⟩ = K := rfl

/-- The contraction positions are the numbers below `K`. -/
abbrev pos : (DotDims.plain M K N).contr.Idx ≃ Fin K := contrEquiv1 (DotDims.plain M K N) K (contr_rank M K N) (contr_size M K N)

/-- On its row axis the left operand follows the result's row. -/
theorem lhsIdx_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- On its column axis the right operand follows the result's column. -/
theorem rhsIdx_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand is read at `(p, k)`. -/
theorem lhsIdx_eq (p : Fin M) (q : Fin N) (k : Fin K) :
    (DotDims.plain M K N).lhsIdx (ix2 p q) ((pos M K N).symm k) = ix2 p k := by
  have hk := contrEquiv1_symm_val (DotDims.plain M K N) K (contr_rank M K N) (contr_size M K N) k
  funext a
  apply Fin.ext
  match a with
  | ⟨0, _⟩ => exact lhsIdx_row M K N _ _
  | ⟨1, _⟩ => exact ((DotDims.plain M K N).lhsIdx_val_of_single (cl := (1 : Fin 2)) rfl _ _).trans hk

/-- The right operand is read at `(k, q)`. -/
theorem rhsIdx_eq (p : Fin M) (q : Fin N) (k : Fin K) :
    (DotDims.plain M K N).rhsIdx (ix2 p q) ((pos M K N).symm k) = ix2 k q := by
  have hk := contrEquiv1_symm_val (DotDims.plain M K N) K (contr_rank M K N) (contr_size M K N) k
  funext a
  apply Fin.ext
  match a with
  | ⟨0, _⟩ => exact ((DotDims.plain M K N).rhsIdx_val_of_single (cr := (0 : Fin 2)) rfl _ _).trans hk
  | ⟨1, _⟩ => exact rhsIdx_col M K N _ _

variable {M K N}

/-- The sum over contraction positions is the sum over `k < K` of the operands at `(p, k)` and `(k, q)`. -/
theorem sum_contr {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k) : EReal)
      = ∑ k : Fin K, l (ix2 p k) * r (ix2 k q) := by
  rw [← Equiv.sum_comp (pos M K N).symm]
  refine Finset.sum_congr rfl fun k _ => ?_
  rw [lhsIdx_eq, rhsIdx_eq]

/-- The vector unit's product into the zero accumulator, at `(p, q)`. -/
theorem matmul_zero_apply {φ₁ φ₂ : FTy} (prec : Option ContractPrecision) (l : FVec Ideal ⟨2, ![M, K]⟩ φ₁) (r : FVec Ideal ⟨2, ![K, N]⟩ φ₂)
    (p : Fin M) (q : Fin N) :
    FloatOps.matmul (DotDims.plain M K N) prec l r (constant ⟨2, ![M, N]⟩ .f32 0x00000000#32) (ix2 p q) = ∑ k : Fin K, l (ix2 p k) * r (ix2 k q) :=
  (Ideal.matmul_constant_zero_apply _ prec l r _).trans (sum_contr l r p q)

/-- The host's `dot_general`, at `(p, q)`. -/
theorem dotGeneral_apply {φ₁ φ₂ : FTy} (prec : Option ContractPrecision) (sched : HostSchedule) (l : FVec Ideal ⟨2, ![M, K]⟩ φ₁)
    (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply _ prec sched l r _).trans (sum_contr l r p q)

end Cert.PlainDot

end
-- ==== Proof.SpecAt.lean ====
/-
  The dense pieces read at an entry, at the exact values.

  At the extended reals a change of float format is the identity and a matrix product is the plain sum, so
  `dense x w` at (p, q) is the sum over k of x (p, k) · w (k, q), and the two products of the perceptron likewise.
-/
import proofs.«164700_j30726196035937_1_alg».proof.Proof.Spec
import proofs.«164700_j30726196035937_1_alg».proof.Proof.LibPlainDot
import Idealize.ShloMosaic.Lib.Pipeline.Value

noncomputable section

open scoped BigOperators

namespace Cert.Spec

open Idealize.ShloMosaic Idealize.ShloMosaic.ValueIdx Cert.ReferenceIdeal

variable [Cert.ReferenceIdeal.Facts]

/-- x · w at (p, q). -/
theorem dense_apply (x : (⟨S100000x128, .f32⟩ : BufTy).Contents (Elt Ideal)) (w : (⟨S128x128, .f32⟩ : BufTy).Contents (Elt Ideal))
    (p : Fin 100000) (q : Fin 128) :
    dense (F := Ideal) x w (ix2 p q) = ∑ k : Fin 128, x (ix2 p k) * w (ix2 k q) :=
  Cert.PlainDot.dotGeneral_apply (M := 100000) (K := 128) (N := 128) none .single x w p q

/-- g · w3 at (p, q), for the pooled features. -/
theorem hidden_apply (g : (⟨S512x128, .f32⟩ : BufTy).Contents (Elt Ideal)) (w : (⟨S128x64, .f32⟩ : BufTy).Contents (Elt Ideal))
    (p : Fin 512) (q : Fin 64) :
    Host.dotGeneral (F := Ideal) (φ₁ := .f32) (φ₂ := .f32) dot_S512x128_S128x64_S512x64_1_0_0_1_n_n none g w (ix2 p q) = ∑ k : Fin 128, g (ix2 p k) * w (ix2 k q) :=
  Cert.PlainDot.dotGeneral_apply (M := 512) (K := 128) (N := 64) none .single g w p q

/-- h · w4 at (p, q), for the hidden layer. -/
theorem out_apply (h : (⟨S512x64, .f32⟩ : BufTy).Contents (Elt Ideal)) (w : (⟨S64x1, .f32⟩ : BufTy).Contents (Elt Ideal))
    (p : Fin 512) (q : Fin 1) :
    Host.dotGeneral (F := Ideal) (φ₁ := .f32) (φ₂ := .f32) dot_S512x64_S64x1_S512x1_1_0_0_1_n_n none h w (ix2 p q) = ∑ k : Fin 64, h (ix2 p k) * w (ix2 k q) :=
  Cert.PlainDot.dotGeneral_apply (M := 512) (K := 64) (N := 1) none .single h w p q

/-- The leaky rectifier on one value: v where v ≥ 0, 0.01 · v elsewhere. -/
def lk (v : Ideal .f32) : Ideal .f32 :=
  Scalar.select (FloatOps.cmpf .oge v (FloatOps.ofBits .f32 0x00000000#32)) v (FloatOps.mulf (FloatOps.ofBits .f32 0x3C23D70A#32) v)

/-- A scalar constant laid over a whole array reads the constant everywhere. -/
theorem splat_apply {s : Shape} (h : S_.BroadcastsInDim s (![] : Fin 0 → Fin s.rank)) (b : BitVec 32) (i : s.Idx) :
    broadcastInDim s ![] h (constant (F := Ideal) S_ .f32 b) i = FloatOps.ofBits (F := Ideal) .f32 b :=
  (broadcastInDim_apply ![] h (constant (F := Ideal) S_ .f32 b) i ix0 (fun a => a.elim0)).trans rfl

/-- A [1, b] row laid under every row of an [a, b] array reads, at (p, c), the row at c. -/
theorem row_apply {α : Type} {a b : ℕ} (h : (⟨2, ![1, b]⟩ : Shape).BroadcastsInDim ⟨2, ![a, b]⟩ (![0, 1] : Fin 2 → Fin 2))
    (v : (⟨2, ![1, b]⟩ : Shape).Idx → α) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- The rectifier on node features, entry by entry. -/
theorem leakyN_apply (x : (⟨S100000x128, .f32⟩ : BufTy).Contents (Elt Ideal)) (i : S100000x128.Idx) :
    leakyN (F := Ideal) x i = lk (x i) := by
  unfold leakyN
  show Scalar.select (FloatOps.cmpf .oge (x i) (broadcastInDim S100000x128 ![] _ (constant (F := Ideal) S_ .f32 0x00000000#32) i)) (x i)
    (FloatOps.mulf (broadcastInDim S100000x128 ![] _ (constant (F := Ideal) S_ .f32 0x3C23D70A#32) i) (x i)) = _
  rw [splat_apply, splat_apply]
  rfl

/-- The rectifier on the hidden layer, entry by entry. -/
theorem leakyG_apply (x : (⟨S512x64, .f32⟩ : BufTy).Contents (Elt Ideal)) (i : S512x64.Idx) :
    leakyG (F := Ideal) x i = lk (x i) := by
  unfold leakyG
  show Scalar.select (FloatOps.cmpf .oge (x i) (broadcastInDim S512x64 ![] _ (constant (F := Ideal) S_ .f32 0x00000000#32) i)) (x i)
    (FloatOps.mulf (broadcastInDim S512x64 ![] _ (constant (F := Ideal) S_ .f32 0x3C23D70A#32) i) (x i)) = _
  rw [splat_apply, splat_apply]
  rfl

/-- leaky (a + b) at (p, k). -/
theorem act_apply (a : (⟨S100000x128, .f32⟩ : BufTy).Contents (Elt Ideal)) (b : (⟨S1x128, .f32⟩ : BufTy).Contents (Elt Ideal))
    (p : Fin 100000) (k : Fin 128) :
    act (F := Ideal) a b (ix2 p k) = lk (a (ix2 p k) + b (ix2 (0 : Fin 1) k)) := by
  unfold act
  rw [leakyN_apply]
  show lk (a (ix2 p k) + broadcastInDim S100000x128 ![0, 1] _ b (ix2 p k)) = _
  rw [row_apply]

/-- leaky (a + b) · w at (p, q). -/
theorem actDense_apply (a : (⟨S100000x128, .f32⟩ : BufTy).Contents (Elt Ideal)) (b : (⟨S1x128, .f32⟩ : BufTy).Contents (Elt Ideal))
    (w : (⟨S128x128, .f32⟩ : BufTy).Contents (Elt Ideal)) (p : Fin 100000) (q : Fin 128) :
    actDense (F := Ideal) a b w (ix2 p q) = ∑ k : Fin 128, lk (a (ix2 p k) + b (ix2 (0 : Fin 1) k)) * w (ix2 k q) := by
  unfold actDense
  rw [dense_apply]
  exact Finset.sum_congr rfl fun k _ => by rw [act_apply]

/-- The perceptron at (p, q). -/
theorem head_apply (g : (⟨S512x128, .f32⟩ : BufTy).Contents (Elt Ideal)) (w3 : (⟨S128x64, .f32⟩ : BufTy).Contents (Elt Ideal))
    (b3 : (⟨S1x64, .f32⟩ : BufTy).Contents (Elt Ideal)) (w4 : (⟨S64x1, .f32⟩ : BufTy).Contents (Elt Ideal))
    (b4 : (⟨S1x1, .f32⟩ : BufTy).Contents (Elt Ideal)) (p : Fin 512) (q : Fin 1) :
    head (F := Ideal) g w3 b3 w4 b4 (ix2 p q)
      = (∑ k : Fin 64, lk ((∑ j : Fin 128, g (ix2 p j) * w3 (ix2 j k)) + b3 (ix2 (0 : Fin 1) k)) * w4 (ix2 k q))
        + b4 (ix2 (0 : Fin 1) q) := by
  unfold head
  show Host.dotGeneral (F := Ideal) (φ₁ := .f32) (φ₂ := .f32) dot_S512x64_S64x1_S512x1_1_0_0_1_n_n none _ w4 (ix2 p q)
    + broadcastInDim S512x1 ![0, 1] _ b4 (ix2 p q) = _
  rw [out_apply, row_apply]
  refine congrArg (· + b4 (ix2 (0 : Fin 1) q)) (Finset.sum_congr rfl fun k _ => ?_)
  rw [leakyG_apply]
  show lk (Host.dotGeneral (F := Ideal) (φ₁ := .f32) (φ₂ := .f32) dot_S512x128_S128x64_S512x64_1_0_0_1_n_n none g w3 (ix2 p k)
    + broadcastInDim S512x64 ![0, 1] _ b3 (ix2 p k)) * w4 (ix2 k q) = _
  rw [hidden_apply, row_apply]

end Cert.Spec

end
-- ==== Proof.Region0Value.lean ====
/-
  Region 0 (the first dense transform) as a whole-array function.

  The region walks the 100000 rows of its first operand in 20 blocks of 5000 rows; at block t it multiplies rows
  5000·t … 5000·t + 4999 by the whole weight matrix and writes the product to the same rows of its result.  Entry
  (p, q) of block t's product is the sum over k of x (5000·t + p, k) · w (k, q), which is entry (5000·t + p, q) of
  the whole product x · w; the 20 blocks tile the result, so after the region the result array is `dense x w`.
-/
import proofs.«164700_j30726196035937_1_alg».proof.Proof.Gen.KernelIdeal.Frame
import proofs.«164700_j30726196035937_1_alg».proof.Proof.SpecAt
import Idealize.ShloMosaic.Lib.Pipeline.Value
import Idealize.ShloMosaic.Lib.ValueIdx

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- The body's product at an entry of its block. -/
theorem pay_apply (x : Vec Ideal S5000x128 .f32) (w : Vec Ideal S128x128 .f32) (p : Fin 5000) (q : Fin 128) :
    k0_pay1 x w (ix2 p q) = ∑ k : Fin 128, x (ix2 p k) * w (ix2 k q) := by
  unfold k0_pay1
  exact Cert.PlainDot.matmul_zero_apply (M := 5000) (K := 128) (N := 128) none
    (truncf .bf16 x bitsLt_bf16_f32) (truncf .bf16 w bitsLt_bf16_f32) p q

/-- Where the printed index maps put each window's block: the operand's and the result's row block is the point's
    number, the weight matrix is one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Twenty blocks. -/
theorem lt20 (t : Fin cfg0.N) : t.val < 20 := by have h := t.isLt; have e : cfg0.N = 20 := N_0; omega

/-- One entry of a block's product is the whole product's entry at the block's row offset, for a block of rows
    read off x at that offset and the whole weight matrix. -/
theorem block_entry [Cert.ReferenceIdeal.Facts] (X : (⟨Cert.ReferenceIdeal.S100000x128, .f32⟩ : BufTy).Contents (Elt Ideal))
    (W : (⟨Cert.ReferenceIdeal.S128x128, .f32⟩ : BufTy).Contents (Elt Ideal))
    (x : Vec Ideal S5000x128 .f32) (w : Vec Ideal S128x128 .f32) (b : Nat) (hb : b < 20)
    (hx : ∀ (p : Fin 5000) (k : Fin 128), x (ix2 p k) = X (ix2 ⟨b * 5000 + p.val, by omega⟩ k))
    (hw : ∀ (k q : Fin 128), w (ix2 k q) = W (ix2 k q)) (p : Fin 5000) (q : Fin 128) :
    k0_pay1 x w (ix2 p q) = Cert.Spec.dense X W (ix2 ⟨b * 5000 + p.val, by omega⟩ q) := by
  rw [pay_apply, Cert.Spec.dense_apply]
  exact Finset.sum_congr rfl fun k _ => by rw [hx, hw]

/-- Block t of the first operand, read off ANY contents of its array: rows 5000·t … of it. -/
theorem read_x (c : Dev nD) (t : Fin cfg0.N) (A : Buf (Elt Ideal) ((c : Thread nD τ).loc main_arg0)) (p : Fin 5000) (k : Fin 128) :
    ((cfg0.win 0).blk t).view.read (Elt Ideal) A (ix2 p k) = A (ix2 ⟨t.val * 5000 + p.val, by have := lt20 t; omega⟩ k) := by
  obtain ⟨e0, e1, -, -, -, -⟩ := idx_facts t
  show A (((cfg0.win 0).blk t).view.emb (ix2 p k)) = _
  refine congrArg A ?_
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

/-- The weight matrix's one block is the matrix. -/
theorem read_w (c : Dev nD) (t : Fin cfg0.N) (A : Buf (Elt Ideal) ((c : Thread nD τ).loc main_arg3)) (k q : Fin 128) :
    ((cfg0.win 1).blk t).view.read (Elt Ideal) A (ix2 k q) = A (ix2 k q) := by
  obtain ⟨-, -, e2, e3, -, -⟩ := idx_facts t
  show A (((cfg0.win 1).blk t).view.emb (ix2 k q)) = _
  refine congrArg A ?_
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-- Block t of the result, read off ANY contents of its array. -/
theorem read_o (c : Dev nD) (t : Fin cfg0.N) (A : Buf (Elt Ideal) ((c : Thread nD τ).loc main_v29)) (p : Fin 5000) (q : Fin 128) :
    ((cfg0.win 2).blk t).view.read (Elt Ideal) A (ix2 p q) = A (ix2 ⟨t.val * 5000 + p.val, by have := lt20 t; omega⟩ q) := by
  obtain ⟨-, -, -, -, e4, e5⟩ := idx_facts t
  show A (((cfg0.win 2).blk t).view.emb (ix2 p q)) = _
  refine congrArg A ?_
  funext a; apply Fin.ext
  match a with
  | ⟨0, _⟩ => show win0_2.index t (0 : Fin 2) * 5000 + 1 * p.val = t.val * 5000 + p.val; omega
  | ⟨1, _⟩ => show win0_2.index t (1 : Fin 2) * 128 + 1 * q.val = q.val; omega

variable [Cert.ReferenceIdeal.Facts] (V : (c : Dev nD) → (b : Ref sig .tc) → Buf (Elt Ideal) ((c : Thread nD τ).loc b))

/-- WHAT POINT t WRITES BACK is block t of the whole product of the arrays the region finds. -/
theorem flushed_eq (c : Dev nD) (t : Fin cfg0.N) :
    (dat0 V c).flushed 2 t = ((cfg0.win 2).blk t).view.read (Elt Ideal) (Cert.Spec.dense (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  have key : ∀ jj : S5000x128.Idx, k0_pay1 (iblk0 V c 0 t) (iblk0 V c 1 t) jj
      = ((cfg0.win 2).blk t).view.read (Elt Ideal) (Cert.Spec.dense (V c main_arg0) (V c main_arg3)) jj := by
    intro jj
    obtain ⟨p, q, rfl⟩ : ∃ (p : Fin 5000) (q : Fin 128), jj = ix2 p q := ⟨jj 0, jj 1, eq_ix2 jj⟩
    rw [read_o c t (Cert.Spec.dense (V c main_arg0) (V c main_arg3)) p q]
    exact block_entry (V c main_arg0) (V c main_arg3) (iblk0 V c 0 t) (iblk0 V c 1 t) t.val (lt20 t)
      (fun p k => read_x c t (V c main_arg0) p k) (fun k q => read_w c t (V c main_arg3) k q) p q
  exact funext key

/-- An index of the result array is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v29).slice (win0_2.rect t)).set ↔ _
  rw [View.set_slice_whole, Rect.mem_set_unit]
  exact Iff.rfl

/-- Row r of the result lies in block r / 5000: the blocks tile the array. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by omega⟩, rfl⟩
  obtain ⟨-, -, -, -, e4, e5⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE RESULT ARRAY after the region: the whole product of the operand arrays as the region finds them. -/
theorem value (c : Dev nD) : (dat0 V c).arrAt 2 cfg0.N = Cert.Spec.dense (V c main_arg0) (V c main_arg3) :=
  (dat0 V c).arrAt_eq_of_cover 2 _ (fun t _ => flushed_eq V c t) cover

/-- The operand windows are never written back. -/
theorem noflush_x : ∀ t : Fin cfg0.N, (cfg0.win 0).flush t = false :=
  (by decide +kernel : ∀ t : Fin grid0.N, win0_0.flush t = false)
theorem noflush_w : ∀ t : Fin cfg0.N, (cfg0.win 1).flush t = false :=
  (by decide +kernel : ∀ t : Fin grid0.N, win0_1.flush t = false)

/-- So their arrays end as the region found them. -/
theorem kept_x (c : Dev nD) : (dat0 V c).arrAt 0 cfg0.N = V c main_arg0 :=
  funext fun i => ((dat0 V c).arrAt_apply_of_forall_not_mem 0 cfg0.N i fun t _ hf => absurd hf (by rw [noflush_x t]; decide)).trans
    (congrFun (A_eq0 V c 0) i)
theorem kept_w (c : Dev nD) : (dat0 V c).arrAt 1 cfg0.N = V c main_arg3 :=
  funext fun i => ((dat0 V c).arrAt_apply_of_forall_not_mem 1 cfg0.N i fun t _ hf => absurd hf (by rw [noflush_w t]; decide)).trans
    (congrFun (A_eq0 V c 1) i)

end Cert.KernelIdeal.Region0

end
-- ==== Proof.Region1Value.lean ====
/-
  Region 1 (bias, rectifier and the second dense transform) as a whole-array function.

  The region walks the 100000 rows of the aggregated features in 20 blocks of 5000 rows; at block t it adds the bias
  row to rows 5000·t … 5000·t + 4999, applies the leaky rectifier entry by entry, multiplies by the whole weight
  matrix and writes the product to the same rows of its result.  Entry (p, q) of block t's result is the sum over k of
  leaky (a (5000·t + p, k) + b (0, k)) · w (k, q), which is entry (5000·t + p, q) of `actDense a b w`; the 20 blocks
  tile the result.
-/
import proofs.«164700_j30726196035937_1_alg».proof.Proof.Gen.KernelIdeal.Frame
import proofs.«164700_j30726196035937_1_alg».proof.Proof.SpecAt
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- The body's result at an entry of its block. -/
theorem pay_apply (x : Vec Ideal S5000x128 .f32) (b : Vec Ideal S1x128 .f32) (w : Vec Ideal S128x128 .f32) (p : Fin 5000) (q : Fin 128) :
    k1_pay1 x b w (ix2 p q) = ∑ k : Fin 128, Cert.Spec.lk (x (ix2 p k) + b (ix2 (0 : Fin 1) k)) * w (ix2 k q) := by
  unfold k1_pay1
  refine (Cert.PlainDot.matmul_zero_apply (M := 5000) (K := 128) (N := 128) none
    (truncf .bf16 _ bitsLt_bf16_f32) (truncf .bf16 w bitsLt_bf16_f32) p q).trans ?_
  refine Finset.sum_congr rfl fun k _ => ?_
  show Cert.Spec.lk (shapeCast S5000x128 x shapeCasts_S5000x128_S5000x128 (ix2 p k)
      + broadcastTo S5000x128 (shapeCast S1x128 b shapeCasts_S1x128_S1x128) broadcasts_S1x128_S5000x128 (ix2 p k)) * w (ix2 k q) = _
  rw [shapeCast_self, shapeCast_self, broadcastTo_1b_ab_apply]

/-- Where the printed index maps put each window's block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Twenty blocks. -/
theorem lt20 (t : Fin cfg1.N) : t.val < 20 := by have h := t.isLt; have e : cfg1.N = 20 := N_1; omega

/-- One entry of a block's result is the whole function's entry at the block's row offset. -/
theorem block_entry [Cert.ReferenceIdeal.Facts] (A : (⟨Cert.ReferenceIdeal.S100000x128, .f32⟩ : BufTy).Contents (Elt Ideal))
    (B : (⟨Cert.ReferenceIdeal.S1x128, .f32⟩ : BufTy).Contents (Elt Ideal))
    (W : (⟨Cert.ReferenceIdeal.S128x128, .f32⟩ : BufTy).Contents (Elt Ideal))
    (x : Vec Ideal S5000x128 .f32) (b : Vec Ideal S1x128 .f32) (w : Vec Ideal S128x128 .f32) (n : Nat) (hn : n < 20)
    (hx : ∀ (p : Fin 5000) (k : Fin 128), x (ix2 p k) = A (ix2 ⟨n * 5000 + p.val, by omega⟩ k))
    (hb : ∀ k : Fin 128, b (ix2 (0 : Fin 1) k) = B (ix2 (0 : Fin 1) k))
    (hw : ∀ (k q : Fin 128), w (ix2 k q) = W (ix2 k q)) (p : Fin 5000) (q : Fin 128) :
    k1_pay1 x b w (ix2 p q) = Cert.Spec.actDense A B W (ix2 ⟨n * 5000 + p.val, by omega⟩ q) := by
  rw [pay_apply, Cert.Spec.actDense_apply]
  exact Finset.sum_congr rfl fun k _ => by rw [hx, hb, hw]

/-- Block t of the aggregated features, read off ANY contents of their array: rows 5000·t … of it. -/
theorem read_x (c : Dev nD) (t : Fin cfg1.N) (A : Buf (Elt Ideal) ((c : Thread nD τ).loc main_v42)) (p : Fin 5000) (k : Fin 128) :
    ((cfg1.win 0).blk t).view.read (Elt Ideal) A (ix2 p k) = A (ix2 ⟨t.val * 5000 + p.val, by have := lt20 t; omega⟩ k) := by
  obtain ⟨e0, e1, -, -, -, -, -, -⟩ := idx_facts t
  show A (((cfg1.win 0).blk t).view.emb (ix2 p k)) = _
  refine congrArg A ?_
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

/-- The bias row's one block is the row. -/
theorem read_b (c : Dev nD) (t : Fin cfg1.N) (A : Buf (Elt Ideal) ((c : Thread nD τ).loc main_v43)) (k : Fin 128) :
    ((cfg1.win 1).blk t).view.read (Elt Ideal) A (ix2 (0 : Fin 1) k) = A (ix2 (0 : Fin 1) k) := by
  obtain ⟨-, -, e2, e3, -, -, -, -⟩ := idx_facts t
  show A (((cfg1.win 1).blk t).view.emb (ix2 (0 : Fin 1) k)) = _
  refine congrArg A ?_
  funext a; apply Fin.ext
  match a with
  | ⟨0, _⟩ => show win1_1.index t (0 : Fin 2) * 1 + 1 * 0 = 0; omega
  | ⟨1, _⟩ => show win1_1.index t (1 : Fin 2) * 128 + 1 * k.val = k.val; omega

/-- The weight matrix's one block is the matrix. -/
theorem read_w (c : Dev nD) (t : Fin cfg1.N) (A : Buf (Elt Ideal) ((c : Thread nD τ).loc main_arg5)) (k q : Fin 128) :
    ((cfg1.win 2).blk t).view.read (Elt Ideal) A (ix2 k q) = A (ix2 k q) := by
  obtain ⟨-, -, -, -, e4, e5, -, -⟩ := idx_facts t
  show A (((cfg1.win 2).blk t).view.emb (ix2 k q)) = _
  refine congrArg A ?_
  funext a; apply Fin.ext
  match a with
  | ⟨0, _⟩ => show win1_2.index t (0 : Fin 2) * 128 + 1 * k.val = k.val; omega
  | ⟨1, _⟩ => show win1_2.index t (1 : Fin 2) * 128 + 1 * q.val = q.val; omega

/-- Block t of the result, read off ANY contents of its array. -/
theorem read_o (c : Dev nD) (t : Fin cfg1.N) (A : Buf (Elt Ideal) ((c : Thread nD τ).loc main_v44)) (p : Fin 5000) (q : Fin 128) :
    ((cfg1.win 3).blk t).view.read (Elt Ideal) A (ix2 p q) = A (ix2 ⟨t.val * 5000 + p.val, by have := lt20 t; omega⟩ q) := by
  obtain ⟨-, -, -, -, -, -, e6, e7⟩ := idx_facts t
  show A (((cfg1.win 3).blk t).view.emb (ix2 p q)) = _
  refine congrArg A ?_
  funext a; apply Fin.ext
  match a with
  | ⟨0, _⟩ => show win1_3.index t (0 : Fin 2) * 5000 + 1 * p.val = t.val * 5000 + p.val; omega
  | ⟨1, _⟩ => show win1_3.index t (1 : Fin 2) * 128 + 1 * q.val = q.val; omega

variable [Cert.ReferenceIdeal.Facts] (V : (c : Dev nD) → (b : Ref sig .tc) → Buf (Elt Ideal) ((c : Thread nD τ).loc b))

/-- WHAT POINT t WRITES BACK is block t of `actDense` of the arrays the region finds. -/
theorem flushed_eq (c : Dev nD) (t : Fin cfg1.N) :
    (dat1 V c).flushed 3 t
      = ((cfg1.win 3).blk t).view.read (Elt Ideal) (Cert.Spec.actDense (V c main_v42) (V c main_v43) (V c main_arg5)) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz, View.ld_unit_zero (S := S128x128) hz]
  have key : ∀ jj : S5000x128.Idx, k1_pay1 (iblk1 V c 0 t) (iblk1 V c 1 t) (iblk1 V c 2 t) jj
      = ((cfg1.win 3).blk t).view.read (Elt Ideal) (Cert.Spec.actDense (V c main_v42) (V c main_v43) (V c main_arg5)) jj := by
    intro jj
    obtain ⟨p, q, rfl⟩ : ∃ (p : Fin 5000) (q : Fin 128), jj = ix2 p q := ⟨jj 0, jj 1, eq_ix2 jj⟩
    rw [read_o c t (Cert.Spec.actDense (V c main_v42) (V c main_v43) (V c main_arg5)) p q]
    exact block_entry (V c main_v42) (V c main_v43) (V c main_arg5) (iblk1 V c 0 t) (iblk1 V c 1 t) (iblk1 V c 2 t) t.val (lt20 t)
      (fun p k => read_x c t (V c main_v42) p k) (fun k => read_b c t (V c main_v43) k) (fun k q => read_w c t (V c main_arg5) k q) p q
  exact funext key

/-- An index of the result array is in point t's block iff each coordinate is in the block's range on its axis. -/
theorem mem_blk (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v44).slice (win1_3.rect t)).set ↔ _
  rw [View.set_slice_whole, Rect.mem_set_unit]
  exact Iff.rfl

/-- Row r of the result lies in block r / 5000: the blocks tile the array. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by omega⟩, rfl⟩
  obtain ⟨-, -, -, -, -, -, e6, e7⟩ := idx_facts t
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- THE RESULT ARRAY after the region. -/
theorem value (c : Dev nD) : (dat1 V c).arrAt 3 cfg1.N = Cert.Spec.actDense (V c main_v42) (V c main_v43) (V c main_arg5) :=
  (dat1 V c).arrAt_eq_of_cover 3 _ (fun t _ => flushed_eq V c t) cover

/-- The operand windows are never written back. -/
theorem noflush_x : ∀ t : Fin cfg1.N, (cfg1.win 0).flush t = false :=
  (by decide +kernel : ∀ t : Fin grid1.N, win1_0.flush t = false)
theorem noflush_b : ∀ t : Fin cfg1.N, (cfg1.win 1).flush t = false :=
  (by decide +kernel : ∀ t : Fin grid1.N, win1_1.flush t = false)
theorem noflush_w : ∀ t : Fin cfg1.N, (cfg1.win 2).flush t = false :=
  (by decide +kernel : ∀ t : Fin grid1.N, win1_2.flush t = false)

/-- So their arrays end as the region found them. -/
theorem kept_x (c : Dev nD) : (dat1 V c).arrAt 0 cfg1.N = V c main_v42 :=
  funext fun i => ((dat1 V c).arrAt_apply_of_forall_not_mem 0 cfg1.N i fun t _ hf => absurd hf (by rw [noflush_x t]; decide)).trans
    (congrFun (A_eq1 V c 0) i)
theorem kept_b (c : Dev nD) : (dat1 V c).arrAt 1 cfg1.N = V c main_v43 :=
  funext fun i => ((dat1 V c).arrAt_apply_of_forall_not_mem 1 cfg1.N i fun t _ hf => absurd hf (by rw [noflush_b t]; decide)).trans
    (congrFun (A_eq1 V c 1) i)
theorem kept_w (c : Dev nD) : (dat1 V c).arrAt 2 cfg1.N = V c main_arg5 :=
  funext fun i => ((dat1 V c).arrAt_apply_of_forall_not_mem 2 cfg1.N i fun t _ hf => absurd hf (by rw [noflush_w t]; decide)).trans
    (congrFun (A_eq1 V c 2) i)

end Cert.KernelIdeal.Region1

end
-- ==== Proof.Region2Value.lean ====
/-
  Region 2 (bias and rectifier after the second aggregation) as a whole-array function.

  The region walks the 100000 rows of the aggregated features in 20 blocks of 5000 rows; at block t it adds the bias
  row to rows 5000·t … 5000·t + 4999 and applies the leaky rectifier entry by entry.  Entry (p, q) of block t's result
  is leaky (a (5000·t + p, q) + b (0, q)), which is entry (5000·t + p, q) of `act a b`; the 20 blocks tile the result.
-/
import proofs.«164700_j30726196035937_1_alg».proof.Proof.Gen.KernelIdeal.Frame
import proofs.«164700_j30726196035937_1_alg».proof.Proof.SpecAt
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- The body's result at an entry of its block. -/
theorem pay_apply (x : Vec Ideal S5000x128 .f32) (b : Vec Ideal S1x128 .f32) (p : Fin 5000) (q : Fin 128) :
    k2_pay1 x b (ix2 p q) = Cert.Spec.lk (x (ix2 p q) + b (ix2 (0 : Fin 1) q)) := by
  unfold k2_pay1
  show Cert.Spec.lk (shapeCast S5000x128 x shapeCasts_S5000x128_S5000x128 (ix2 p q)
      + broadcastTo S5000x128 (shapeCast S1x128 b shapeCasts_S1x128_S1x128) broadcasts_S1x128_S5000x128 (ix2 p q)) = _
  rw [shapeCast_self, shapeCast_self, broadcastTo_1b_ab_apply]

/-- Where the printed index maps put each window's block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Twenty blocks. -/
theorem lt20 (t : Fin cfg2.N) : t.val < 20 := by have h := t.isLt; have e : cfg2.N = 20 := N_2; omega

/-- One entry of a block's result is the whole function's entry at the block's row offset. -/
theorem block_entry [Cert.ReferenceIdeal.Facts] (A : (⟨Cert.ReferenceIdeal.S100000x128, .f32⟩ : BufTy).Contents (Elt Ideal))
    (B : (⟨Cert.ReferenceIdeal.S1x128, .f32⟩ : BufTy).Contents (Elt Ideal))
    (x : Vec Ideal S5000x128 .f32) (b : Vec Ideal S1x128 .f32) (n : Nat) (hn : n < 20)
    (hx : ∀ (p : Fin 5000) (k : Fin 128), x (ix2 p k) = A (ix2 ⟨n * 5000 + p.val, by omega⟩ k))
    (hb : ∀ k : Fin 128, b (ix2 (0 : Fin 1) k) = B (ix2 (0 : Fin 1) k)) (p : Fin 5000) (q : Fin 128) :
    k2_pay1 x b (ix2 p q) = Cert.Spec.act A B (ix2 ⟨n * 5000 + p.val, by omega⟩ q) := by
  rw [pay_apply, Cert.Spec.act_apply, hx, hb]

/-- Block t of the aggregated features, read off ANY contents of their array: rows 5000·t … of it. -/
theorem read_x (c : Dev nD) (t : Fin cfg2.N) (A : Buf (Elt Ideal) ((c : Thread nD τ).loc main_v57)) (p : Fin 5000) (k : Fin 128) :
    ((cfg2.win 0).blk t).view.read (Elt Ideal) A (ix2 p k) = A (ix2 ⟨t.val * 5000 + p.val, by have := lt20 t; omega⟩ k) := by
  obtain ⟨e0, e1, -, -, -, -⟩ := idx_facts t
  show A (((cfg2.win 0).blk t).view.emb (ix2 p k)) = _
  refine congrArg A ?_
  funext a; apply Fin.ext
  match a with
  | ⟨0, _⟩ => show win2_0.index t (0 : Fin 2) * 5000 + 1 * p.val = t.val * 5000 + p.val; omega
  | ⟨1, _⟩ => show win2_0.index t (1 : Fin 2) * 128 + 1 * k.val = k.val; omega

/-- The bias row's one block is the row. -/
theorem read_b (c : Dev nD) (t : Fin cfg2.N) (A : Buf (Elt Ideal) ((c : Thread nD τ).loc main_v58)) (k : Fin 128) :
    ((cfg2.win 1).blk t).view.read (Elt Ideal) A (ix2 (0 : Fin 1) k) = A (ix2 (0 : Fin 1) k) := by
  obtain ⟨-, -, e2, e3, -, -⟩ := idx_facts t
  show A (((cfg2.win 1).blk t).view.emb (ix2 (0 : Fin 1) k)) = _
  refine congrArg A ?_
  funext a; apply Fin.ext
  match a with
  | ⟨0, _⟩ => show win2_1.index t (0 : Fin 2) * 1 + 1 * 0 = 0; omega
  | ⟨1, _⟩ => show win2_1.index t (1 : Fin 2) * 128 + 1 * k.val = k.val; omega

/-- Block t of the result, read off ANY contents of its array. -/
theorem read_o (c : Dev nD) (t : Fin cfg2.N) (A : Buf (Elt Ideal) ((c : Thread nD τ).loc main_v59)) (p : Fin 5000) (q : Fin 128) :
    ((cfg2.win 2).blk t).view.read (Elt Ideal) A (ix2 p q) = A (ix2 ⟨t.val * 5000 + p.val, by have := lt20 t; omega⟩ q) := by
  obtain ⟨-, -, -, -, e4, e5⟩ := idx_facts t
  show A (((cfg2.win 2).blk t).view.emb (ix2 p q)) = _
  refine congrArg A ?_
  funext a; apply Fin.ext
  match a with
  | ⟨0, _⟩ => show win2_2.index t (0 : Fin 2) * 5000 + 1 * p.val = t.val * 5000 + p.val; omega
  | ⟨1, _⟩ => show win2_2.index t (1 : Fin 2) * 128 + 1 * q.val = q.val; omega

variable [Cert.ReferenceIdeal.Facts] (V : (c : Dev nD) → (b : Ref sig .tc) → Buf (Elt Ideal) ((c : Thread nD τ).loc b))

/-- WHAT POINT t WRITES BACK is block t of `act` of the arrays the region finds. -/
theorem flushed_eq (c : Dev nD) (t : Fin cfg2.N) :
    (dat2 V c).flushed 2 t = ((cfg2.win 2).blk t).view.read (Elt Ideal) (Cert.Spec.act (V c main_v57) (V c main_v58)) := by
  show (cfg2.win 2).cut (grid2.coords t) ((dat2 V c).after 2 t) = _
  rw [after2_2]
  unfold out2_2
  rw [View.canon_unit_zero hz]
  simp only [View.ld_unit_zero (S := S5000x128) hz, View.ld_unit_zero (S := S1x128) hz]
  have key : ∀ jj : S5000x128.Idx, k2_pay1 (iblk2 V c 0 t) (iblk2 V c 1 t) jj
      = ((cfg2.win 2).blk t).view.read (Elt Ideal) (Cert.Spec.act (V c main_v57) (V c main_v58)) jj := by
    intro jj
    obtain ⟨p, q, rfl⟩ : ∃ (p : Fin 5000) (q : Fin 128), jj = ix2 p q := ⟨jj 0, jj 1, eq_ix2 jj⟩
    rw [read_o c t (Cert.Spec.act (V c main_v57) (V c main_v58)) p q]
    exact block_entry (V c main_v57) (V c main_v58) (iblk2 V c 0 t) (iblk2 V c 1 t) t.val (lt20 t)
      (fun p k => read_x c t (V c main_v57) p k) (fun k => read_b c t (V c main_v58) k) p q
  exact funext key

/-- An index of the result array is in point t's block iff each coordinate is in the block's range on its axis. -/
theorem mem_blk (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v59).slice (win2_2.rect t)).set ↔ _
  rw [View.set_slice_whole, Rect.mem_set_unit]
  exact Iff.rfl

/-- Row r of the result lies in block r / 5000: the blocks tile the array. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  obtain ⟨t, ht⟩ : ∃ t : Fin cfg2.N, t.val = (i 0).val / 5000 := ⟨⟨(i 0).val / 5000, by omega⟩, rfl⟩
  obtain ⟨-, -, -, -, e4, e5⟩ := idx_facts t
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- THE RESULT ARRAY after the region. -/
theorem value (c : Dev nD) : (dat2 V c).arrAt 2 cfg2.N = Cert.Spec.act (V c main_v57) (V c main_v58) :=
  (dat2 V c).arrAt_eq_of_cover 2 _ (fun t _ => flushed_eq V c t) cover

/-- The operand windows are never written back. -/
theorem noflush_x : ∀ t : Fin cfg2.N, (cfg2.win 0).flush t = false :=
  (by decide +kernel : ∀ t : Fin grid2.N, win2_0.flush t = false)
theorem noflush_b : ∀ t : Fin cfg2.N, (cfg2.win 1).flush t = false :=
  (by decide +kernel : ∀ t : Fin grid2.N, win2_1.flush t = false)

/-- So their arrays end as the region found them. -/
theorem kept_x (c : Dev nD) : (dat2 V c).arrAt 0 cfg2.N = V c main_v57 :=
  funext fun i => ((dat2 V c).arrAt_apply_of_forall_not_mem 0 cfg2.N i fun t _ hf => absurd hf (by rw [noflush_x t]; decide)).trans
    (congrFun (A_eq2 V c 0) i)
theorem kept_b (c : Dev nD) : (dat2 V c).arrAt 1 cfg2.N = V c main_v58 :=
  funext fun i => ((dat2 V c).arrAt_apply_of_forall_not_mem 1 cfg2.N i fun t _ hf => absurd hf (by rw [noflush_b t]; decide)).trans
    (congrFun (A_eq2 V c 1) i)

end Cert.KernelIdeal.Region2

end
-- ==== Proof.Region3Value.lean ====
/-
  Region 3 (the perceptron on the pooled features) as a whole-array function.

  The region has one grid point and every window's block is its whole array.  Its body computes
  leaky (g · w3 + b3) · w4 + b4: entry (p, q) is the sum over k of leaky ((sum over j of g (p, j) · w3 (j, k)) + b3 (0, k)) · w4 (k, q),
  plus b4 (0, q) — which is `head g w3 b3 w4 b4` at (p, q).
-/
import proofs.«164700_j30726196035937_1_alg».proof.Proof.Gen.KernelIdeal.Frame
import proofs.«164700_j30726196035937_1_alg».proof.Proof.SpecAt
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Region3

open Cert.KernelIdeal Cert.KernelIdeal.Gen Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- The body's hidden layer before the rectifier, as a function of the loaded blocks. -/
def hid (g : Vec Ideal S512x128 .f32) (w3 : Vec Ideal S128x64 .f32) (b3 : Vec Ideal S1x64 .f32) : FVec Ideal S512x64 .f32 :=
  addf (matmul dot_S512x128_S128x64_S512x64_1_0_0_1_n_n none
      (truncf .bf16 (shapeCast S512x128 g shapeCasts_S512x128_S512x128) bitsLt_bf16_f32) (truncf .bf16 w3 bitsLt_bf16_f32)
      (constant S512x64 .f32 0x00000000#32))
    (broadcastTo S512x64 (shapeCast S1x64 b3 shapeCasts_S1x64_S1x64) broadcasts_S1x64_S512x64)

/-- The body's rectifier on the hidden layer. -/
def leakyV (x : FVec Ideal S512x64 .f32) : FVec Ideal S512x64 .f32 :=
  select (cmpf .oge x (broadcast S512x64 (Scalar.ofBits .f32 0x00000000#32))) x
    (mulf (broadcast S512x64 (Scalar.ofBits .f32 0x3C23D70A#32)) x)

theorem leakyV_apply (x : FVec Ideal S512x64 .f32) (i : S512x64.Idx) : leakyV x i = Cert.Spec.lk (x i) := rfl

/-- The hidden layer at (p, k). -/
theorem hid_apply (g : Vec Ideal S512x128 .f32) (w3 : Vec Ideal S128x64 .f32) (b3 : Vec Ideal S1x64 .f32) (p : Fin 512) (k : Fin 64) :
    hid g w3 b3 (ix2 p k) = (∑ j : Fin 128, g (ix2 p j) * w3 (ix2 j k)) + b3 (ix2 (0 : Fin 1) k) := by
  unfold hid
  rw [addf_apply, broadcastTo_1b_ab_apply, shapeCast_self, shapeCast_self]
  refine congrArg (· + b3 (ix2 (0 : Fin 1) k)) ?_
  exact Cert.PlainDot.matmul_zero_apply (M := 512) (K := 128) (N := 64) none
    (truncf .bf16 g bitsLt_bf16_f32) (truncf .bf16 w3 bitsLt_bf16_f32) p k

/-- The body's result is the second product of the rectified hidden layer, plus the last bias. -/
theorem pay_eq (g : Vec Ideal S512x128 .f32) (w3 : Vec Ideal S128x64 .f32) (b3 : Vec Ideal S1x64 .f32) (w4 : Vec Ideal S64x1 .f32)
    (b4 : Vec Ideal S1x1 .f32) :
    k3_pay1 g w3 b3 w4 b4
      = addf (matmul dot_S512x64_S64x1_S512x1_1_0_0_1_n_n none (truncf .bf16 (leakyV (hid g w3 b3)) bitsLt_bf16_f32)
          (truncf .bf16 w4 bitsLt_bf16_f32) (constant S512x1 .f32 0x00000000#32))
        (broadcastTo S512x1 (shapeCast S1x1 b4 shapeCasts_S1x1_S1x1) broadcasts_S1x1_S512x1) := rfl

/-- The body's result at (p, q). -/
theorem pay_apply (g : Vec Ideal S512x128 .f32) (w3 : Vec Ideal S128x64 .f32) (b3 : Vec Ideal S1x64 .f32) (w4 : Vec Ideal S64x1 .f32)
    (b4 : Vec Ideal S1x1 .f32) (p : Fin 512) (q : Fin 1) :
    k3_pay1 g w3 b3 w4 b4 (ix2 p q)
      = (∑ k : Fin 64, Cert.Spec.lk ((∑ j : Fin 128, g (ix2 p j) * w3 (ix2 j k)) + b3 (ix2 (0 : Fin 1) k)) * w4 (ix2 k q))
        + b4 (ix2 (0 : Fin 1) q) := by
  rw [pay_eq, addf_apply, broadcastTo_1b_ab_apply, shapeCast_self]
  refine congrArg (· + b4 (ix2 (0 : Fin 1) q)) ?_
  refine (Cert.PlainDot.matmul_zero_apply (M := 512) (K := 64) (N := 1) none
    (truncf .bf16 (leakyV (hid g w3 b3)) bitsLt_bf16_f32) (truncf .bf16 w4 bitsLt_bf16_f32) p q).trans ?_
  refine Finset.sum_congr rfl fun k _ => ?_
  show Cert.Spec.lk (hid g w3 b3 (ix2 p k)) * w4 (ix2 k q) = _
  rw [hid_apply]

/-- Every window's block is its whole array: all the printed index maps are zero at the one point. -/
theorem idx_facts : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-- Each window's block read off ANY contents of its array is those contents. -/
theorem read_g (c : Dev nD) (t : Fin cfg3.N) (A : Buf (Elt Ideal) ((c : Thread nD τ).loc main_v71)) (p : Fin 512) (k : Fin 128) :
    ((cfg3.win 0).blk t).view.read (Elt Ideal) A (ix2 p k) = A (ix2 p k) := by
  obtain ⟨e0, e1, -⟩ := idx_facts t
  show A (((cfg3.win 0).blk t).view.emb (ix2 p k)) = _
  refine congrArg A ?_
  funext a; apply Fin.ext
  match a with
  | ⟨0, _⟩ => show win3_0.index t (0 : Fin 2) * 512 + 1 * p.val = p.val; omega
  | ⟨1, _⟩ => show win3_0.index t (1 : Fin 2) * 128 + 1 * k.val = k.val; omega
theorem read_w3 (c : Dev nD) (t : Fin cfg3.N) (A : Buf (Elt Ideal) ((c : Thread nD τ).loc main_arg7)) (p : Fin 128) (k : Fin 64) :
    ((cfg3.win 1).blk t).view.read (Elt Ideal) A (ix2 p k) = A (ix2 p k) := by
  obtain ⟨-, -, e0, e1, -⟩ := idx_facts t
  show A (((cfg3.win 1).blk t).view.emb (ix2 p k)) = _
  refine congrArg A ?_
  funext a; apply Fin.ext
  match a with
  | ⟨0, _⟩ => show win3_1.index t (0 : Fin 2) * 128 + 1 * p.val = p.val; omega
  | ⟨1, _⟩ => show win3_1.index t (1 : Fin 2) * 64 + 1 * k.val = k.val; omega
theorem read_b3 (c : Dev nD) (t : Fin cfg3.N) (A : Buf (Elt Ideal) ((c : Thread nD τ).loc main_v72)) (k : Fin 64) :
    ((cfg3.win 2).blk t).view.read (Elt Ideal) A (ix2 (0 : Fin 1) k) = A (ix2 (0 : Fin 1) k) := by
  obtain ⟨-, -, -, -, e0, e1, -⟩ := idx_facts t
  show A (((cfg3.win 2).blk t).view.emb (ix2 (0 : Fin 1) k)) = _
  refine congrArg A ?_
  funext a; apply Fin.ext
  match a with
  | ⟨0, _⟩ => show win3_2.index t (0 : Fin 2) * 1 + 1 * 0 = 0; omega
  | ⟨1, _⟩ => show win3_2.index t (1 : Fin 2) * 64 + 1 * k.val = k.val; omega
theorem read_w4 (c : Dev nD) (t : Fin cfg3.N) (A : Buf (Elt Ideal) ((c : Thread nD τ).loc main_arg9)) (p : Fin 64) (k : Fin 1) :
    ((cfg3.win 3).blk t).view.read (Elt Ideal) A (ix2 p k) = A (ix2 p k) := by
  obtain ⟨-, -, -, -, -, -, e0, e1, -⟩ := idx_facts t
  show A (((cfg3.win 3).blk t).view.emb (ix2 p k)) = _
  refine congrArg A ?_
  funext a; apply Fin.ext
  match a with
  | ⟨0, _⟩ => show win3_3.index t (0 : Fin 2) * 64 + 1 * p.val = p.val; omega
  | ⟨1, _⟩ => show win3_3.index t (1 : Fin 2) * 1 + 1 * k.val = k.val; omega
theorem read_b4 (c : Dev nD) (t : Fin cfg3.N) (A : Buf (Elt Ideal) ((c : Thread nD τ).loc main_v73)) (k : Fin 1) :
    ((cfg3.win 4).blk t).view.read (Elt Ideal) A (ix2 (0 : Fin 1) k) = A (ix2 (0 : Fin 1) k) := by
  obtain ⟨-, -, -, -, -, -, -, -, e0, e1, -⟩ := idx_facts t
  show A (((cfg3.win 4).blk t).view.emb (ix2 (0 : Fin 1) k)) = _
  refine congrArg A ?_
  funext a; apply Fin.ext
  match a with
  | ⟨0, _⟩ => show win3_4.index t (0 : Fin 2) * 1 + 1 * 0 = 0; omega
  | ⟨1, _⟩ => show win3_4.index t (1 : Fin 2) * 1 + 1 * k.val = k.val; omega
theorem read_o (c : Dev nD) (t : Fin cfg3.N) (A : Buf (Elt Ideal) ((c : Thread nD τ).loc main_v74)) (p : Fin 512) (q : Fin 1) :
    ((cfg3.win 5).blk t).view.read (Elt Ideal) A (ix2 p q) = A (ix2 p q) := by
  obtain ⟨-, -, -, -, -, -, -, -, -, -, e0, e1⟩ := idx_facts t
  show A (((cfg3.win 5).blk t).view.emb (ix2 p q)) = _
  refine congrArg A ?_
  funext a; apply Fin.ext
  match a with
  | ⟨0, _⟩ => show win3_5.index t (0 : Fin 2) * 512 + 1 * p.val = p.val; omega
  | ⟨1, _⟩ => show win3_5.index t (1 : Fin 2) * 1 + 1 * q.val = q.val; omega

/-- The body's result on blocks that are the whole arrays is the perceptron of the arrays. -/
theorem block_entry [Cert.ReferenceIdeal.Facts] (G : (⟨Cert.ReferenceIdeal.S512x128, .f32⟩ : BufTy).Contents (Elt Ideal))
    (W3 : (⟨Cert.ReferenceIdeal.S128x64, .f32⟩ : BufTy).Contents (Elt Ideal))
    (B3 : (⟨Cert.ReferenceIdeal.S1x64, .f32⟩ : BufTy).Contents (Elt Ideal))
    (W4 : (⟨Cert.ReferenceIdeal.S64x1, .f32⟩ : BufTy).Contents (Elt Ideal))
    (B4 : (⟨Cert.ReferenceIdeal.S1x1, .f32⟩ : BufTy).Contents (Elt Ideal))
    (g : Vec Ideal S512x128 .f32) (w3 : Vec Ideal S128x64 .f32) (b3 : Vec Ideal S1x64 .f32) (w4 : Vec Ideal S64x1 .f32) (b4 : Vec Ideal S1x1 .f32)
    (hg : ∀ (p : Fin 512) (j : Fin 128), g (ix2 p j) = G (ix2 p j)) (hw3 : ∀ (j : Fin 128) (k : Fin 64), w3 (ix2 j k) = W3 (ix2 j k))
    (hb3 : ∀ k : Fin 64, b3 (ix2 (0 : Fin 1) k) = B3 (ix2 (0 : Fin 1) k)) (hw4 : ∀ (k : Fin 64) (q : Fin 1), w4 (ix2 k q) = W4 (ix2 k q))
    (hb4 : ∀ q : Fin 1, b4 (ix2 (0 : Fin 1) q) = B4 (ix2 (0 : Fin 1) q)) (p : Fin 512) (q : Fin 1) :
    k3_pay1 g w3 b3 w4 b4 (ix2 p q) = Cert.Spec.head G W3 B3 W4 B4 (ix2 p q) := by
  rw [pay_apply, Cert.Spec.head_apply, hb4]
  refine congrArg (· + B4 (ix2 (0 : Fin 1) q)) (Finset.sum_congr rfl fun k _ => ?_)
  rw [hb3, hw4]
  refine congrArg (fun s => Cert.Spec.lk (s + B3 (ix2 (0 : Fin 1) k)) * W4 (ix2 k q)) (Finset.sum_congr rfl fun j _ => ?_)
  rw [hg, hw3]

variable [Cert.ReferenceIdeal.Facts] (V : (c : Dev nD) → (b : Ref sig .tc) → Buf (Elt Ideal) ((c : Thread nD τ).loc b))

/-- WHAT THE ONE POINT WRITES BACK is the perceptron of the arrays the region finds. -/
theorem flushed_eq (c : Dev nD) (t : Fin cfg3.N) :
    (dat3 V c).flushed 5 t = ((cfg3.win 5).blk t).view.read (Elt Ideal)
      (Cert.Spec.head (V c main_v71) (V c main_arg7) (V c main_v72) (V c main_arg9) (V c main_v73)) := by
  show (cfg3.win 5).cut (grid3.coords t) ((dat3 V c).after 5 t) = _
  rw [after3_5]
  unfold out3_5
  rw [View.canon_unit_zero hz]
  simp only [View.ld_unit_zero (S := S512x128) hz, View.ld_unit_zero (S := S128x64) hz, View.ld_unit_zero (S := S1x64) hz,
    View.ld_unit_zero (S := S64x1) hz, View.ld_unit_zero (S := S1x1) hz]
  have key : ∀ jj : S512x1.Idx, k3_pay1 (iblk3 V c 0 t) (iblk3 V c 1 t) (iblk3 V c 2 t) (iblk3 V c 3 t) (iblk3 V c 4 t) jj
      = ((cfg3.win 5).blk t).view.read (Elt Ideal)
          (Cert.Spec.head (V c main_v71) (V c main_arg7) (V c main_v72) (V c main_arg9) (V c main_v73)) jj := by
    intro jj
    obtain ⟨p, q, rfl⟩ : ∃ (p : Fin 512) (q : Fin 1), jj = ix2 p q := ⟨jj 0, jj 1, eq_ix2 jj⟩
    rw [read_o c t (Cert.Spec.head (V c main_v71) (V c main_arg7) (V c main_v72) (V c main_arg9) (V c main_v73)) p q]
    exact block_entry (V c main_v71) (V c main_arg7) (V c main_v72) (V c main_arg9) (V c main_v73)
      (iblk3 V c 0 t) (iblk3 V c 1 t) (iblk3 V c 2 t) (iblk3 V c 3 t) (iblk3 V c 4 t)
      (fun p j => read_g c t (V c main_v71) p j) (fun j k => read_w3 c t (V c main_arg7) j k) (fun k => read_b3 c t (V c main_v72) k)
      (fun k q => read_w4 c t (V c main_arg9) k q) (fun q => read_b4 c t (V c main_v73) q) p q
  exact funext key

/-- An index of the result array is in the point's block iff each coordinate is in the block's range on its axis. -/
theorem mem_blk (t : Fin cfg3.N) (i : S512x1.Idx) :
    i ∈ ((cfg3.win 5).blk t).view.set ↔ ∀ a : Fin 2, win3_5.index t a * S512x1.size a ≤ (i a).val
      ∧ (i a).val < win3_5.index t a * S512x1.size a + S512x1.size a := by
  show i ∈ ((View.whole main_v74).slice (win3_5.rect t)).set ↔ _
  rw [View.set_slice_whole, Rect.mem_set_unit]
  exact Iff.rfl

/-- The one block is the whole result. -/
theorem cover (i : S512x1.Idx) : ∃ t : Fin cfg3.N, (cfg3.win 5).flush t = true ∧ i ∈ ((cfg3.win 5).blk t).view.set := by
  have hi0 : (i 0).val < 512 := (i 0).isLt
  have hi1 : (i 1).val < 1 := (i 1).isLt
  obtain ⟨-, -, -, -, -, -, -, -, -, -, e0, e1⟩ := idx_facts t3_0
  refine ⟨t3_0, flush3_5 t3_0, ?_⟩
  rw [mem_blk]
  intro a
  match a with
  | ⟨0, _⟩ => show win3_5.index t3_0 (0 : Fin 2) * 512 ≤ (i 0).val ∧ (i 0).val < win3_5.index t3_0 (0 : Fin 2) * 512 + 512; omega
  | ⟨1, _⟩ => show win3_5.index t3_0 (1 : Fin 2) * 1 ≤ (i 1).val ∧ (i 1).val < win3_5.index t3_0 (1 : Fin 2) * 1 + 1; omega

/-- THE RESULT ARRAY after the region. -/
theorem value (c : Dev nD) : (dat3 V c).arrAt 5 cfg3.N
    = Cert.Spec.head (V c main_v71) (V c main_arg7) (V c main_v72) (V c main_arg9) (V c main_v73) :=
  (dat3 V c).arrAt_eq_of_cover 5 _ (fun t _ => flushed_eq V c t) cover

/-- The operand windows are never written back. -/
theorem noflush0 : ∀ t : Fin cfg3.N, (cfg3.win 0).flush t = false := (by decide +kernel : ∀ t : Fin grid3.N, win3_0.flush t = false)
theorem noflush1 : ∀ t : Fin cfg3.N, (cfg3.win 1).flush t = false := (by decide +kernel : ∀ t : Fin grid3.N, win3_1.flush t = false)
theorem noflush2 : ∀ t : Fin cfg3.N, (cfg3.win 2).flush t = false := (by decide +kernel : ∀ t : Fin grid3.N, win3_2.flush t = false)
theorem noflush3 : ∀ t : Fin cfg3.N, (cfg3.win 3).flush t = false := (by decide +kernel : ∀ t : Fin grid3.N, win3_3.flush t = false)
theorem noflush4 : ∀ t : Fin cfg3.N, (cfg3.win 4).flush t = false := (by decide +kernel : ∀ t : Fin grid3.N, win3_4.flush t = false)

/-- So their arrays end as the region found them. -/
theorem kept0 (c : Dev nD) : (dat3 V c).arrAt 0 cfg3.N = V c main_v71 :=
  funext fun i => ((dat3 V c).arrAt_apply_of_forall_not_mem 0 cfg3.N i fun t _ hf => absurd hf (by rw [noflush0 t]; decide)).trans
    (congrFun (A_eq3 V c 0) i)
theorem kept1 (c : Dev nD) : (dat3 V c).arrAt 1 cfg3.N = V c main_arg7 :=
  funext fun i => ((dat3 V c).arrAt_apply_of_forall_not_mem 1 cfg3.N i fun t _ hf => absurd hf (by rw [noflush1 t]; decide)).trans
    (congrFun (A_eq3 V c 1) i)
theorem kept2 (c : Dev nD) : (dat3 V c).arrAt 2 cfg3.N = V c main_v72 :=
  funext fun i => ((dat3 V c).arrAt_apply_of_forall_not_mem 2 cfg3.N i fun t _ hf => absurd hf (by rw [noflush2 t]; decide)).trans
    (congrFun (A_eq3 V c 2) i)
theorem kept3 (c : Dev nD) : (dat3 V c).arrAt 3 cfg3.N = V c main_arg9 :=
  funext fun i => ((dat3 V c).arrAt_apply_of_forall_not_mem 3 cfg3.N i fun t _ hf => absurd hf (by rw [noflush3 t]; decide)).trans
    (congrFun (A_eq3 V c 3) i)
theorem kept4 (c : Dev nD) : (dat3 V c).arrAt 4 cfg3.N = V c main_v73 :=
  funext fun i => ((dat3 V c).arrAt_apply_of_forall_not_mem 4 cfg3.N i fun t _ hf => absurd hf (by rw [noflush4 t]; decide)).trans
    (congrFun (A_eq3 V c 4) i)

end Cert.KernelIdeal.Region3

end
-- ==== Proof.LibRegionAsOp.lean ====
/-
  A pipelined region seen as one host operation.

  When a region's pipeline leaves every input array as it found it and its one output array at a function of the
  entry contents, the buffer contents at the region's exit — the entry contents with the region's arrays replaced by what
  the pipeline leaves — are exactly what ONE host operation writing that output would leave.  Stated for any operation
  `op` that writes the output array's buffer and nothing else: it is enough that `op`'s result at that buffer is what
  the pipeline leaves there (`hout`) and that the other windows' arrays end as they were entered (`hin`).  The region
  can then be read in line with the host operations around it, by the same computation on the operations' fold.
-/
import Idealize.ShloMosaic.Lib.Pipeline.FrameSuffix
import Idealize.ShloMosaic.Lib.StableHlo.Run

noncomputable section

namespace Cert.RegionAsOp

open Idealize.ShloMosaic Idealize.ShloMosaic.Pipeline Idealize.SL.Sem

variable {nD : Nat} {τ : Topo} {sig : RefSig} {Val : EltTy → Type}

/-- The exit contents of a region whose only written array is window `wout`'s are the result of a host operation that
    writes that array's buffer to the same contents. -/
theorem withArrays_eq_result {gr W : Nat} (win : Fin W → WinSpec sig gr) (hinj : Function.Injective (arrRef win))
    (c : Dev nD) (V : Valuation τ sig Val) (A : (w : Fin W) → Buf Val ((win w).arr.view.loc (c.tc : Thread nD τ)))
    (op : HloOp τ sig Val) (wout : Fin W)
    (hw : op.writes = {Proc.devRef .tc (arrRef win wout)})
    (hout : op.result V (Proc.devRef .tc (arrRef win wout)) = A wout)
    (hin : ∀ w, w ≠ wout → A w = V (Proc.devRef .tc (arrRef win w))) :
    withArrays win c V A = op.result V := by
  funext b
  by_cases h : ∃ w, Proc.devRef .tc (arrRef win w) = b
  · obtain ⟨w, rfl⟩ := h
    rw [withArrays_arr win hinj c V A w]
    by_cases hwo : w = wout
    · subst hwo
      exact hout.symm
    · rw [hin w hwo]
      exact (op.result_of_not_mem V (by
        rw [hw, Finset.mem_singleton]
        exact fun e => hwo (hinj (Proc.devRef_injective _ e)))).symm
  · have hb : b ∉ op.writes := by
      rw [hw, Finset.mem_singleton]
      exact fun e => h ⟨wout, e.symm⟩
    rw [op.result_of_not_mem V hb]
    unfold withArrays
    rw [dif_neg h]

end Cert.RegionAsOp

end
-- ==== Proof.KernelLine.lean ====
/-
  The idealized kernel's buffers at the last region's entry, as one line of host operations.

  Each of the first three regions leaves its operand arrays as it found them and its one result array at a function
  of them (`dense`, `actDense`, `act`: the three region-value modules).  So at the exact values a region acts on
  the buffer contents exactly as ONE host operation writing that result would, and the contents the last region is
  entered with are the fold, from the launch memory, of the four stretches of host operations with one such operation
  standing for each region between them.  The last region's result is then the perceptron of what that fold holds in
  its five operand buffers.
-/
import proofs.«164700_j30726196035937_1_alg».proof.Proof.Region0Value
import proofs.«164700_j30726196035937_1_alg».proof.Proof.Region1Value
import proofs.«164700_j30726196035937_1_alg».proof.Proof.Region2Value
import proofs.«164700_j30726196035937_1_alg».proof.Proof.Region3Value
import proofs.«164700_j30726196035937_1_alg».proof.Proof.LibRegionAsOp

set_option maxRecDepth 16384

noncomputable section

namespace Cert.KernelIdeal.Line

open Cert.KernelIdeal Cert.KernelIdeal.Gen Idealize.ShloMosaic Idealize.ShloMosaic.TcCoe Idealize.SL.Sem Idealize.ShloMosaic.StableHlo

variable {F : FTy → Type} [FloatOps F] [Cert.ReferenceIdeal.Facts]

/-- Region 0 as one operation: the dense transform of %arg0 by %arg3 into %29. -/
abbrev op0 : HloOp τ sig (Elt F) :=
  binary main_arg0 main_arg3 main_v29 (fun x w => Cert.Spec.dense x w)
/-- Region 1 as one operation: bias, rectifier and dense transform of %42 into %44. -/
abbrev op1 : HloOp τ sig (Elt F) :=
  ternary main_v42 main_v43 main_arg5 main_v44 (fun a b w => Cert.Spec.actDense a b w)
/-- Region 2 as one operation: bias and rectifier of %57 into %59. -/
abbrev op2 : HloOp τ sig (Elt F) :=
  binary main_v57 main_v58 main_v59 (fun a b => Cert.Spec.act a b)

/-- The contents the last region is entered with, from any launch contents: the four stretches and the three
    operations in @main's order. -/
abbrev line (V : Valuation τ sig (Elt F)) : Valuation τ sig (Elt F) :=
  after hostOps3 (op2.result (after hostOps2 (op1.result (after hostOps1 (op0.result (after hostOps0 V))))))

variable (m : (ℓ : Loc nD τ sig) → Buf (Elt Ideal) ℓ) (ρ : Dev nD → PrngReg)

/-- Region 0's exit contents are operation 0's result on its entry contents. -/
theorem W2_eq (c : Dev nD) : W2 m ρ c = (op0 (F := Ideal)).result (W1 m ρ c) := by
  unfold W2
  refine Cert.RegionAsOp.withArrays_eq_result spec0 launch0.win.arr_inj c (W1 m ρ c) _ op0 2 rfl ?_ ?_
  · exact (binary_result main_arg0 main_arg3 main_v29 _ _ _ _ (W1 m ρ c)).trans (Cert.KernelIdeal.Region0.value (V1 m ρ) c).symm
  · intro w hw
    match w, hw with
    | ⟨0, _⟩, _ => exact Cert.KernelIdeal.Region0.kept_x (V1 m ρ) c
    | ⟨1, _⟩, _ => exact Cert.KernelIdeal.Region0.kept_w (V1 m ρ) c
    | ⟨2, _⟩, hw => exact absurd rfl hw

/-- Region 1's exit contents are operation 1's result on its entry contents. -/
theorem W4_eq (c : Dev nD) : W4 m ρ c = (op1 (F := Ideal)).result (W3 m ρ c) := by
  unfold W4
  refine Cert.RegionAsOp.withArrays_eq_result spec1 launch1.win.arr_inj c (W3 m ρ c) _ op1 3 rfl ?_ ?_
  · exact (ternary_result main_v42 main_v43 main_arg5 main_v44 _ _ _ _ _ (W3 m ρ c)).trans (Cert.KernelIdeal.Region1.value (V3 m ρ) c).symm
  · intro w hw
    match w, hw with
    | ⟨0, _⟩, _ => exact Cert.KernelIdeal.Region1.kept_x (V3 m ρ) c
    | ⟨1, _⟩, _ => exact Cert.KernelIdeal.Region1.kept_b (V3 m ρ) c
    | ⟨2, _⟩, _ => exact Cert.KernelIdeal.Region1.kept_w (V3 m ρ) c
    | ⟨3, _⟩, hw => exact absurd rfl hw

/-- Region 2's exit contents are operation 2's result on its entry contents. -/
theorem W6_eq (c : Dev nD) : W6 m ρ c = (op2 (F := Ideal)).result (W5 m ρ c) := by
  unfold W6
  refine Cert.RegionAsOp.withArrays_eq_result spec2 launch2.win.arr_inj c (W5 m ρ c) _ op2 2 rfl ?_ ?_
  · exact (binary_result main_v57 main_v58 main_v59 _ _ _ _ (W5 m ρ c)).trans (Cert.KernelIdeal.Region2.value (V5 m ρ) c).symm
  · intro w hw
    match w, hw with
    | ⟨0, _⟩, _ => exact Cert.KernelIdeal.Region2.kept_x (V5 m ρ) c
    | ⟨1, _⟩, _ => exact Cert.KernelIdeal.Region2.kept_b (V5 m ρ) c
    | ⟨2, _⟩, hw => exact absurd rfl hw

/-- The last region's entry contents are the line's, from the launch memory. -/
theorem W7_eq (c : Dev nD) : W7 m ρ c = line (F := Ideal) (launchContents m c) := by
  show after hostOps3 (W6 m ρ c) = _
  rw [W6_eq]
  show after hostOps3 (op2.result (after hostOps2 (W4 m ρ c))) = _
  rw [W4_eq]
  show after hostOps3 (op2.result (after hostOps2 (op1.result (after hostOps1 (W2 m ρ c))))) = _
  rw [W2_eq]

/-- THE KERNEL'S RESULT: the perceptron of what the line holds in the last region's five operand buffers. -/
theorem result_eq (c : Dev nD) :
    W8 m ρ c (Proc.devRef .tc main_v74)
      = Cert.Spec.head (line (F := Ideal) (launchContents m c) (main_v71 : DevRef τ sig))
          (line (F := Ideal) (launchContents m c) (main_arg7 : DevRef τ sig))
          (line (F := Ideal) (launchContents m c) (main_v72 : DevRef τ sig))
          (line (F := Ideal) (launchContents m c) (main_arg9 : DevRef τ sig))
          (line (F := Ideal) (launchContents m c) (main_v73 : DevRef τ sig)) := by
  have h := W8_arr m ρ c 5
  rw [Cert.KernelIdeal.Region3.value (V7 m ρ) c] at h
  rw [← W7_eq m ρ c]
  exact h

end Cert.KernelIdeal.Line

end
-- ==== Proof.Glue.lean ====
/-
  The host-side chains both programs share, and the whole network over them.

  Outside the dense pieces both programs do the same things with host operations: split the edge list into sources
  and destinations and append a self-loop per node (`src`, `dst`); wrap a negative index by the node count and make
  it a column of start indices (`wrap`); count each node's incoming edges, clamp the count at 1 and take the inverse
  square root (`dinv`); weigh each edge by the product of its ends' factors (`norm`); aggregate — gather the source
  rows, scale them by the edge weights, and add them up at the destinations (`agg`); and average node features per
  graph (`pool`).  `net` is the network: two rounds of dense transform, aggregation, bias and rectifier, the pool, and
  the perceptron.  It takes the four biases as rows [1, n], which the two programs make from the bias vectors in two
  different ways.
-/
import proofs.«164700_j30726196035937_1_alg».proof.Proof.Spec

noncomputable section

namespace Cert.Glue

open Idealize.ShloMosaic Cert.ReferenceIdeal Cert.ReferenceIdeal.Facts₀

variable {F : FTy → Type} [FloatOps F] [Cert.ReferenceIdeal.Facts]

/-- The edges' sources, then every node once (the self-loops). -/
def src (ei : (⟨S2x1600000, .i32⟩ : BufTy).Contents (Elt F)) : (⟨S1700000, .i32⟩ : BufTy).Contents (Elt F) :=
  concatenate S1700000 0
    [⟨S1600000, shapeCast S1600000 (extractStridedSlice S1x1600000 ![0, 0] ei slices_S2x1600000_S1x1600000_0_0) shapeCasts_S1x1600000_S1600000⟩,
     ⟨S100000, iotaInDim S100000 32 0⟩] concatenates_S1600000_S100000_S1700000_d0

/-- The edges' destinations, then every node once. -/
def dst (ei : (⟨S2x1600000, .i32⟩ : BufTy).Contents (Elt F)) : (⟨S1700000, .i32⟩ : BufTy).Contents (Elt F) :=
  concatenate S1700000 0
    [⟨S1600000, shapeCast S1600000 (extractStridedSlice S1x1600000 ![1, 0] ei slices_S2x1600000_S1x1600000_1_0) shapeCasts_S1x1600000_S1600000⟩,
     ⟨S100000, iotaInDim S100000 32 0⟩] concatenates_S1600000_S100000_S1700000_d0

/-- A list of node numbers as a column. -/
def col (s : (⟨S1700000, .i32⟩ : BufTy).Contents (Elt F)) : (⟨S1700000x1, .i32⟩ : BufTy).Contents (Elt F) :=
  broadcastInDim S1700000x1 ![0] bcast_S1700000_S1700000x1_0 s

/-- A negative node number counted from the end, then the column of start indices. -/
def wrap (s : (⟨S1700000, .i32⟩ : BufTy).Contents (Elt F)) : (⟨S1700000x1, .i32⟩ : BufTy).Contents (Elt F) :=
  col (select (cmpi .slt s (broadcastInDim S1700000 ![] bcast_S_S1700000 (constantI S_ 32 0#32)))
    (addi s (broadcastInDim S1700000 ![] bcast_S_S1700000 (constantI S_ 32 100000#32))) s)

/-- One over the square root of each node's in-degree, the degree clamped at 1. -/
def dinv (d : (⟨S1700000, .i32⟩ : BufTy).Contents (Elt F)) : (⟨S100000, .f32⟩ : BufTy).Contents (Elt F) :=
  Host.rsqrt (maximumf
    (Host.scatterAdd scatter_S100000_S1700000x1_S1700000_n_0_0_1
      (broadcastInDim S100000 ![] bcast_S_S100000 (constant S_ .f32 0x00000000#32)) (col d)
      (broadcastInDim S1700000 ![] bcast_S_S1700000 (constant S_ .f32 0x3F800000#32)))
    (broadcastInDim S100000 ![] bcast_S_S100000 (constant S_ .f32 0x3F800000#32)))

/-- Each edge's weight: the product of its two ends' factors. -/
def norm (s d : (⟨S1700000, .i32⟩ : BufTy).Contents (Elt F)) : (⟨S1700000, .f32⟩ : BufTy).Contents (Elt F) :=
  mulf (Host.gather gather_S100000_S1700000x1_S1700000_n_0_n_n_0_1_1 (dinv d) (wrap s))
    (Host.gather gather_S100000_S1700000x1_S1700000_n_0_n_n_0_1_1 (dinv d) (wrap d))

/-- The weighted sum, at each node, of the rows of h at the sources of its incoming edges. -/
def agg (h : (⟨S100000x128, .f32⟩ : BufTy).Contents (Elt F)) (s d : (⟨S1700000, .i32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant S_ .f32 0x00000000#32)) (col d)
    (mulf (Host.gather gather_S100000x128_S1700000x1_S1700000x128_1_0_n_n_0_1_1128 h (wrap s))
      (broadcastInDim S1700000x128 ![0, 1] bcast_S1700000x1_S1700000x128_0_1
        (broadcastInDim S1700000x1 ![0] bcast_S1700000_S1700000x1_0 (norm s d))))

/-- The mean of the node features of each graph, the graph's node count clamped at 1. -/
def pool (h : (⟨S100000x128, .f32⟩ : BufTy).Contents (Elt F)) (batch : (⟨S100000, .i32⟩ : BufTy).Contents (Elt F)) : (⟨S512x128, .f32⟩ : BufTy).Contents (Elt F) :=
  Host.divf
    (Host.scatterAdd scatter_S512x128_S100000x1_S100000x128_1_0_0_1
      (broadcastInDim S512x128 ![] bcast_S_S512x128 (constant S_ .f32 0x00000000#32))
      (broadcastInDim S100000x1 ![0] bcast_S100000_S100000x1_0 batch) h)
    (broadcastInDim S512x128 ![0, 1] bcast_S512x1_S512x128_0_1
      (broadcastInDim S512x1 ![0] bcast_S512_S512x1_0
        (maximumf
          (Host.scatterAdd scatter_S512_S100000x1_S100000_n_0_0_1
            (broadcastInDim S512 ![] bcast_S_S512 (constant S_ .f32 0x00000000#32))
            (broadcastInDim S100000x1 ![0] bcast_S100000_S100000x1_0 batch)
            (broadcastInDim S100000 ![] bcast_S_S100000 (constant S_ .f32 0x3F800000#32)))
          (broadcastInDim S512 ![] bcast_S_S512 (constant S_ .f32 0x3F800000#32)))))

/-- The network, over the bias rows. -/
def net (x : (⟨S100000x128, .f32⟩ : BufTy).Contents (Elt F)) (ei : (⟨S2x1600000, .i32⟩ : BufTy).Contents (Elt F)) (batch : (⟨S100000, .i32⟩ : BufTy).Contents (Elt F))
    (w1 : (⟨S128x128, .f32⟩ : BufTy).Contents (Elt F)) (b1 : (⟨S1x128, .f32⟩ : BufTy).Contents (Elt F)) (w2 : (⟨S128x128, .f32⟩ : BufTy).Contents (Elt F)) (b2 : (⟨S1x128, .f32⟩ : BufTy).Contents (Elt F))
    (w3 : (⟨S128x64, .f32⟩ : BufTy).Contents (Elt F)) (b3 : (⟨S1x64, .f32⟩ : BufTy).Contents (Elt F)) (w4 : (⟨S64x1, .f32⟩ : BufTy).Contents (Elt F)) (b4 : (⟨S1x1, .f32⟩ : BufTy).Contents (Elt F)) : (⟨S512x1, .f32⟩ : BufTy).Contents (Elt F) :=
  Cert.Spec.head
    (pool (Cert.Spec.act (agg (Cert.Spec.actDense (agg (Cert.Spec.dense x w1) (src ei) (dst ei)) b1 w2) (src ei) (dst ei)) b2) batch)
    w3 b3 w4 b4

end Cert.Glue

end
-- ==== Proof.KernelRead.lean ====
/-
  The line of host operations read back: the kernel's result is the network of the argument arrays.

  The last region's first operand is the pooled features — by the operations' fold, the pool of the second layer's
  activations, themselves `act` of the aggregation of `actDense` of the aggregation of `dense` of the node features,
  over the edge lists made from the edge index; its weight operands are argument arrays no operation writes, and its
  two bias rows are reshapes of the bias vectors.  Put together, the perceptron of these five is `net` of the
  arguments, the four biases entering as reshaped rows.
-/
import proofs.«164700_j30726196035937_1_alg».proof.Proof.KernelLine
import proofs.«164700_j30726196035937_1_alg».proof.Proof.Glue
import Idealize.ShloMosaic.Lib.StableHlo.Run

set_option maxRecDepth 16384

noncomputable section

namespace Cert.KernelIdeal.Read

open Cert.KernelIdeal Cert.KernelIdeal.Gen Cert.KernelIdeal.Line Idealize.ShloMosaic Idealize.ShloMosaic.TcCoe Idealize.SL.Sem Idealize.ShloMosaic.StableHlo

variable {F : FTy → Type} [FloatOps F] [Cert.ReferenceIdeal.Facts]

-- ninety-odd operations in one pass: each buffer read meets every operation once
set_option maxHeartbeats 8000000 in
/-- The pooled features the perceptron is applied to. -/
theorem read_v71 (V : Valuation τ sig (Elt F)) :
    line V (main_v71 : DevRef τ sig)
      = Cert.Glue.pool (Cert.Spec.act (Cert.Glue.agg (Cert.Spec.actDense
            (Cert.Glue.agg (Cert.Spec.dense (V (main_arg0 : DevRef τ sig)) (V (main_arg3 : DevRef τ sig)))
              (Cert.Glue.src (V (main_arg1 : DevRef τ sig))) (Cert.Glue.dst (V (main_arg1 : DevRef τ sig))))
            (shapeCast S1x128 (V (main_arg4 : DevRef τ sig)) Facts₀.shapeCasts_S128_S1x128) (V (main_arg5 : DevRef τ sig)))
          (Cert.Glue.src (V (main_arg1 : DevRef τ sig))) (Cert.Glue.dst (V (main_arg1 : DevRef τ sig))))
          (shapeCast S1x128 (V (main_arg6 : DevRef τ sig)) Facts₀.shapeCasts_S128_S1x128)) (V (main_arg2 : DevRef τ sig)) := by
  unfold line
  after_results_simp
  rfl

set_option maxHeartbeats 4000000 in
/-- The first weight matrix of the perceptron is the argument array. -/
theorem read_arg7 (V : Valuation τ sig (Elt F)) : line V (main_arg7 : DevRef τ sig) = (V (main_arg7 : DevRef τ sig)) := by
  unfold line
  after_results_simp

set_option maxHeartbeats 4000000 in
/-- Its second weight matrix likewise. -/
theorem read_arg9 (V : Valuation τ sig (Elt F)) : line V (main_arg9 : DevRef τ sig) = (V (main_arg9 : DevRef τ sig)) := by
  unfold line
  after_results_simp

set_option maxHeartbeats 4000000 in
/-- Its first bias row is the reshaped bias vector. -/
theorem read_v72 (V : Valuation τ sig (Elt F)) :
    line V (main_v72 : DevRef τ sig) = shapeCast S1x64 (V (main_arg8 : DevRef τ sig)) Facts₀.shapeCasts_S64_S1x64 := by
  unfold line
  after_results_simp
  rfl

set_option maxHeartbeats 4000000 in
/-- Its second bias row likewise. -/
theorem read_v73 (V : Valuation τ sig (Elt F)) :
    line V (main_v73 : DevRef τ sig) = shapeCast S1x1 (V (main_arg10 : DevRef τ sig)) Facts₀.shapeCasts_S1_S1x1 := by
  unfold line
  after_results_simp
  rfl

/-- THE LINE'S PERCEPTRON IS THE NETWORK of the arguments, the biases as reshaped rows. -/
theorem head_line (V : Valuation τ sig (Elt F)) :
    Cert.Spec.head (line V (main_v71 : DevRef τ sig)) (line V (main_arg7 : DevRef τ sig)) (line V (main_v72 : DevRef τ sig))
        (line V (main_arg9 : DevRef τ sig)) (line V (main_v73 : DevRef τ sig))
      = Cert.Glue.net (V (main_arg0 : DevRef τ sig)) (V (main_arg1 : DevRef τ sig)) (V (main_arg2 : DevRef τ sig)) (V (main_arg3 : DevRef τ sig))
          (shapeCast S1x128 (V (main_arg4 : DevRef τ sig)) Facts₀.shapeCasts_S128_S1x128) (V (main_arg5 : DevRef τ sig))
          (shapeCast S1x128 (V (main_arg6 : DevRef τ sig)) Facts₀.shapeCasts_S128_S1x128) (V (main_arg7 : DevRef τ sig))
          (shapeCast S1x64 (V (main_arg8 : DevRef τ sig)) Facts₀.shapeCasts_S64_S1x64) (V (main_arg9 : DevRef τ sig))
          (shapeCast S1x1 (V (main_arg10 : DevRef τ sig)) Facts₀.shapeCasts_S1_S1x1) := by
  rw [read_v71, read_arg7, read_v72, read_arg9, read_v73]
  rfl

end Cert.KernelIdeal.Read

end
-- ==== Proof.BiasRow.lean ====
/-
  A bias vector as a row, two ways.

  The kernel's program makes the [1, n] row of a length-n bias by a reshape, the reference's by a broadcast along a new
  leading unit axis.  Both read, at (0, i), the vector at i: they are the same array.
-/
import Idealize.ShloMosaic.Lib.Pipeline.Value
import Idealize.ShloMosaic.Lib.ValueIdx
import Idealize.ShloMosaic.Lib.ValueLayout

noncomputable section

namespace Cert.BiasRow

open Idealize.ShloMosaic Idealize.ShloMosaic.ValueIdx

/-- The reshape of a length-a vector to [1, a] is its broadcast along a new leading axis. -/
theorem reshape_eq_broadcast {α : Type} {a : ℕ} (x : (⟨1, ![a]⟩ : Shape).Idx → α)
    (h : (⟨1, ![a]⟩ : Shape).ShapeCasts ⟨2, ![1, a]⟩)
    (h' : (⟨1, ![a]⟩ : Shape).BroadcastsInDim ⟨2, ![1, a]⟩ (![1] : Fin 1 → Fin 2)) :
    shapeCast ⟨2, ![1, a]⟩ x h = broadcastInDim ⟨2, ![1, a]⟩ ![1] h' x := by
  funext j
  obtain ⟨u, i, rfl⟩ : ∃ (u : Fin 1) (i : Fin a), j = ix2 u i := ⟨j 0, j 1, eq_ix2 j⟩
  rw [shapeCast_a_1a_apply]
  refine (broadcastInDim_apply _ h' x (ix2 u i) (ix1 i) fun ax => ?_).symm
  match ax with
  | ⟨0, _⟩ =>
    show i.val = if a = 1 then 0 else i.val
    split
    · have := i.isLt; omega
    · rfl

end Cert.BiasRow

end
-- ==== Proof.KernelNet.lean ====
/-
  The idealized kernel's run: its result is the network of the launch arrays.

  The run ends with the result buffer at the last boundary's contents; those are the perceptron of the line's five
  operand buffers, which is `net` of the argument arrays with each bias a reshaped row; and a reshaped bias row is the
  bias broadcast along a new leading axis.
-/
import proofs.«164700_j30726196035937_1_alg».proof.Proof.KernelRun
import proofs.«164700_j30726196035937_1_alg».proof.Proof.KernelRead
import proofs.«164700_j30726196035937_1_alg».proof.Proof.BiasRow

set_option maxRecDepth 16384

noncomputable section

namespace Cert.KernelIdeal.Net

open Cert.KernelIdeal Cert.KernelIdeal.Gen Idealize.ShloMosaic Idealize.ShloMosaic.TcCoe Idealize.SL.Sem Idealize.ShloMosaic.StableHlo

variable [Cert.ReferenceIdeal.Facts] (m : (ℓ : Loc nD τ sig) → Buf (Elt Ideal) ℓ) (ρ : Dev nD → PrngReg)

/-- The last boundary's contents at the result buffer: the network of the launch arrays. -/
theorem result_net (c : Dev nD) :
    W8 m ρ c (Proc.devRef .tc main_v74)
      = Cert.Glue.net (m ((c.tc : Thread nD τ).loc main_arg0)) (m ((c.tc : Thread nD τ).loc main_arg1)) (m ((c.tc : Thread nD τ).loc main_arg2)) (m ((c.tc : Thread nD τ).loc main_arg3))
          (broadcastInDim Cert.ReferenceIdeal.S1x128 ![1] Cert.ReferenceIdeal.Facts₀.bcast_S128_S1x128_1 (m ((c.tc : Thread nD τ).loc main_arg4)))
          (m ((c.tc : Thread nD τ).loc main_arg5))
          (broadcastInDim Cert.ReferenceIdeal.S1x128 ![1] Cert.ReferenceIdeal.Facts₀.bcast_S128_S1x128_1 (m ((c.tc : Thread nD τ).loc main_arg6)))
          (m ((c.tc : Thread nD τ).loc main_arg7))
          (broadcastInDim Cert.ReferenceIdeal.S1x64 ![1] Cert.ReferenceIdeal.Facts₀.bcast_S64_S1x64_1 (m ((c.tc : Thread nD τ).loc main_arg8)))
          (m ((c.tc : Thread nD τ).loc main_arg9))
          (broadcastInDim Cert.ReferenceIdeal.S1x1 ![1] Cert.ReferenceIdeal.Facts₀.bcast_S1_S1x1_1 (m ((c.tc : Thread nD τ).loc main_arg10))) := by
  rw [Cert.KernelIdeal.Line.result_eq, Cert.KernelIdeal.Read.head_line]
  rw [Cert.BiasRow.reshape_eq_broadcast (a := 128) (launchContents m c (main_arg4 : DevRef τ sig)) _
        Cert.ReferenceIdeal.Facts₀.bcast_S128_S1x128_1,
    Cert.BiasRow.reshape_eq_broadcast (a := 128) (launchContents m c (main_arg6 : DevRef τ sig)) _
        Cert.ReferenceIdeal.Facts₀.bcast_S128_S1x128_1,
    Cert.BiasRow.reshape_eq_broadcast (a := 64) (launchContents m c (main_arg8 : DevRef τ sig)) _
        Cert.ReferenceIdeal.Facts₀.bcast_S64_S1x64_1,
    Cert.BiasRow.reshape_eq_broadcast (a := 1) (launchContents m c (main_arg10 : DevRef τ sig)) _
        Cert.ReferenceIdeal.Facts₀.bcast_S1_S1x1_1]

/-- THE RUN: every weakly fair execution terminates, the result the network of the launch arrays, the arguments
    unchanged. -/
theorem run_net : θ_run defs (onTc (τ := τ) (main (F := Ideal))) ⟨m, fun _ => 0, ρ⟩ (fun r => ∀ c : Dev nD,
      r.2.mem ((c.tc : Thread nD τ).loc main_v74)
        = Cert.Glue.net (m ((c.tc : Thread nD τ).loc main_arg0)) (m ((c.tc : Thread nD τ).loc main_arg1)) (m ((c.tc : Thread nD τ).loc main_arg2)) (m ((c.tc : Thread nD τ).loc main_arg3))
          (broadcastInDim Cert.ReferenceIdeal.S1x128 ![1] Cert.ReferenceIdeal.Facts₀.bcast_S128_S1x128_1 (m ((c.tc : Thread nD τ).loc main_arg4)))
          (m ((c.tc : Thread nD τ).loc main_arg5))
          (broadcastInDim Cert.ReferenceIdeal.S1x128 ![1] Cert.ReferenceIdeal.Facts₀.bcast_S128_S1x128_1 (m ((c.tc : Thread nD τ).loc main_arg6)))
          (m ((c.tc : Thread nD τ).loc main_arg7))
          (broadcastInDim Cert.ReferenceIdeal.S1x64 ![1] Cert.ReferenceIdeal.Facts₀.bcast_S64_S1x64_1 (m ((c.tc : Thread nD τ).loc main_arg8)))
          (m ((c.tc : Thread nD τ).loc main_arg9))
          (broadcastInDim Cert.ReferenceIdeal.S1x1 ![1] Cert.ReferenceIdeal.Facts₀.bcast_S1_S1x1_1 (m ((c.tc : Thread nD τ).loc main_arg10)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result_net m ρ c), (h c).2⟩) (Cert.KernelIdeal.Run.run_result m ρ)

end Cert.KernelIdeal.Net

end
-- ==== Proof.RefOps.lean ====
/- The reference's @main as the list of its host operations, in order: 156 entries,
   each the builder, references and function of one printed statement; a call's statements stand at
   the call site over the call's own buffers, its operands in place of the callee's arguments.
   A table only: nothing is proved here. -/
import proofs.«164700_j30726196035937_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the three calls' operations inline. -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg3 main_v4 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_v5 (iotaInDim S100000 32 0),
    binary main_v1 main_v5 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v5 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v8 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x3F800000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (maximumf : (⟨S100000, .f32⟩ : BufTy).Contents (Elt F) → (⟨S100000, .f32⟩ : BufTy).Contents (Elt F) → (⟨S100000, .f32⟩ : BufTy).Contents (Elt F)),
    unary main_v13 main_v14 (Host.rsqrt : (⟨S100000, .f32⟩ : BufTy).Contents (Elt F) → (⟨S100000, .f32⟩ : BufTy).Contents (Elt F)),
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v6 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_2 (constantI S_ 32 100000#32),
    unary main_c_2 main_v17 (broadcastInDim S1700000 ![] bcast_S_S1700000 : (⟨S_, .i32⟩ : BufTy).Contents (Elt F) → (⟨S1700000, .i32⟩ : BufTy).Contents (Elt F)),
    binary main_v6 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v6 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_3 (constantI S_ 32 0#32),
    unary main_c_3 main_v22 (broadcastInDim S1700000 ![] bcast_S_S1700000 : (⟨S_, .i32⟩ : BufTy).Contents (Elt F) → (⟨S1700000, .i32⟩ : BufTy).Contents (Elt F)),
    binary main_v7 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v24 (broadcastInDim S1700000 ![] bcast_S_S1700000 : (⟨S_, .i32⟩ : BufTy).Contents (Elt F) → (⟨S1700000, .i32⟩ : BufTy).Contents (Elt F)),
    binary main_v7 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v7 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)),
    nullary main_c_5 (constantI S_ 32 0#32),
    unary main_c_5 main_v30 (broadcastInDim S1700000 ![] bcast_S_S1700000 : (⟨S_, .i32⟩ : BufTy).Contents (Elt F) → (⟨S1700000, .i32⟩ : BufTy).Contents (Elt F)),
    binary main_v6 main_v30 main_v31 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v32 (broadcastInDim S1700000 ![] bcast_S_S1700000 : (⟨S_, .i32⟩ : BufTy).Contents (Elt F) → (⟨S1700000, .i32⟩ : BufTy).Contents (Elt F)),
    binary main_v6 main_v32 main_v33 (addi : (⟨S1700000, .i32⟩ : BufTy).Contents (Elt F) → (⟨S1700000, .i32⟩ : BufTy).Contents (Elt F) → (⟨S1700000, .i32⟩ : BufTy).Contents (Elt F)),
    ternary main_v31 main_v33 main_v6 main_v34 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v34 main_v35 (broadcastInDim S1700000x1 ![0] bcast_S1700000_S1700000x1_0 : (⟨S1700000, .i32⟩ : BufTy).Contents (Elt F) → (⟨S1700000x1, .i32⟩ : BufTy).Contents (Elt F)),
    binary main_v4 main_v35 main_v36 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v37 (broadcastInDim S1700000x1 ![0] bcast_S1700000_S1700000x1_0 : (⟨S1700000, .f32⟩ : BufTy).Contents (Elt F) → (⟨S1700000x1, .f32⟩ : BufTy).Contents (Elt F)),
    unary main_v37 main_v38 (broadcastInDim S1700000x128 ![0, 1] bcast_S1700000x1_S1700000x128_0_1 : (⟨S1700000x1, .f32⟩ : BufTy).Contents (Elt F) → (⟨S1700000x128, .f32⟩ : BufTy).Contents (Elt F)),
    binary main_v36 main_v38 main_v39 (mulf : (⟨S1700000x128, .f32⟩ : BufTy).Contents (Elt F) → (⟨S1700000x128, .f32⟩ : BufTy).Contents (Elt F) → (⟨S1700000x128, .f32⟩ : BufTy).Contents (Elt F)),
    nullary main_cst_7 (constant S_ .f32 0x00000000#32),
    unary main_cst_7 main_v40 (broadcastInDim S100000x128 ![] bcast_S_S100000x128 : (⟨S_, .f32⟩ : BufTy).Contents (Elt F) → (⟨S100000x128, .f32⟩ : BufTy).Contents (Elt F)),
    unary main_v7 main_v41 (broadcastInDim S1700000x1 ![0] bcast_S1700000_S1700000x1_0 : (⟨S1700000, .i32⟩ : BufTy).Contents (Elt F) → (⟨S1700000x1, .i32⟩ : BufTy).Contents (Elt F)),
    ternary main_v40 main_v41 main_v39 main_v42 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg4 main_v43 (broadcastInDim S1x128 ![1] bcast_S128_S1x128_1 : (⟨S128, .f32⟩ : BufTy).Contents (Elt F) → (⟨S1x128, .f32⟩ : BufTy).Contents (Elt F)),
    unary main_v43 main_v44 (broadcastInDim S100000x128 ![0, 1] bcast_S1x128_S100000x128_0_1 : (⟨S1x128, .f32⟩ : BufTy).Contents (Elt F) → (⟨S100000x128, .f32⟩ : BufTy).Contents (Elt F)),
    binary main_v42 main_v44 main_v45 (addf : (⟨S100000x128, .f32⟩ : BufTy).Contents (Elt F) → (⟨S100000x128, .f32⟩ : BufTy).Contents (Elt F) → (⟨S100000x128, .f32⟩ : BufTy).Contents (Elt F)),
    nullary main_cst_8 (constant S_ .f32 0x3C23D70A#32),
    TRef.nullary main_call0.cst (constant S_ .f32 0x00000000#32),
    TRef.unary main_call0.cst main_call0.v0 (broadcastInDim S100000x128 ![] bcast_S_S100000x128),
    TRef.binary (.of main_v45) main_call0.v0 main_call0.v1 (cmpf .oge),
    TRef.unary (.of main_cst_8) main_call0.v2 id,
    TRef.unary main_call0.v2 main_call0.v3 (broadcastInDim S100000x128 ![] bcast_S_S100000x128),
    TRef.binary main_call0.v3 (.of main_v45) main_call0.v4 mulf,
    TRef.ternary main_call0.v1 (.of main_v45) main_call0.v4 main_call0.call0.v0 select,
    binary main_v46 main_arg5 main_v47 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_v48 (iotaInDim S100000 32 0),
    binary main_v1 main_v48 main_v49 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v48 main_v50 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_9 (constant S_ .f32 0x3F800000#32),
    unary main_cst_9 main_v51 (broadcastInDim S1700000 ![] bcast_S_S1700000 : (⟨S_, .f32⟩ : BufTy).Contents (Elt F) → (⟨S1700000, .f32⟩ : BufTy).Contents (Elt F)),
    nullary main_cst_10 (constant S_ .f32 0x00000000#32),
    unary main_cst_10 main_v52 (broadcastInDim S100000 ![] bcast_S_S100000 : (⟨S_, .f32⟩ : BufTy).Contents (Elt F) → (⟨S100000, .f32⟩ : BufTy).Contents (Elt F)),
    unary main_v50 main_v53 (broadcastInDim S1700000x1 ![0] bcast_S1700000_S1700000x1_0 : (⟨S1700000, .i32⟩ : BufTy).Contents (Elt F) → (⟨S1700000x1, .i32⟩ : BufTy).Contents (Elt F)),
    ternary main_v52 main_v53 main_v51 main_v54 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_11 (constant S_ .f32 0x3F800000#32),
    unary main_cst_11 main_v55 (broadcastInDim S100000 ![] bcast_S_S100000 : (⟨S_, .f32⟩ : BufTy).Contents (Elt F) → (⟨S100000, .f32⟩ : BufTy).Contents (Elt F)),
    binary main_v54 main_v55 main_v56 (maximumf : (⟨S100000, .f32⟩ : BufTy).Contents (Elt F) → (⟨S100000, .f32⟩ : BufTy).Contents (Elt F) → (⟨S100000, .f32⟩ : BufTy).Contents (Elt F)),
    unary main_v56 main_v57 (Host.rsqrt : (⟨S100000, .f32⟩ : BufTy).Contents (Elt F) → (⟨S100000, .f32⟩ : BufTy).Contents (Elt F)),
    nullary main_c_12 (constantI S_ 32 0#32),
    unary main_c_12 main_v58 (broadcastInDim S1700000 ![] bcast_S_S1700000 : (⟨S_, .i32⟩ : BufTy).Contents (Elt F) → (⟨S1700000, .i32⟩ : BufTy).Contents (Elt F)),
    binary main_v49 main_v58 main_v59 (cmpi .slt : (⟨S1700000, .i32⟩ : BufTy).Contents (Elt F) → (⟨S1700000, .i32⟩ : BufTy).Contents (Elt F) → (⟨S1700000, .i1⟩ : BufTy).Contents (Elt F)),
    nullary main_c_13 (constantI S_ 32 100000#32),
    unary main_c_13 main_v60 (broadcastInDim S1700000 ![] bcast_S_S1700000 : (⟨S_, .i32⟩ : BufTy).Contents (Elt F) → (⟨S1700000, .i32⟩ : BufTy).Contents (Elt F)),
    binary main_v49 main_v60 main_v61 (addi : (⟨S1700000, .i32⟩ : BufTy).Contents (Elt F) → (⟨S1700000, .i32⟩ : BufTy).Contents (Elt F) → (⟨S1700000, .i32⟩ : BufTy).Contents (Elt F)),
    ternary main_v59 main_v61 main_v49 main_v62 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v62 main_v63 (broadcastInDim S1700000x1 ![0] bcast_S1700000_S1700000x1_0 : (⟨S1700000, .i32⟩ : BufTy).Contents (Elt F) → (⟨S1700000x1, .i32⟩ : BufTy).Contents (Elt F)),
    binary main_v57 main_v63 main_v64 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_14 (constantI S_ 32 0#32),
    unary main_c_14 main_v65 (broadcastInDim S1700000 ![] bcast_S_S1700000 : (⟨S_, .i32⟩ : BufTy).Contents (Elt F) → (⟨S1700000, .i32⟩ : BufTy).Contents (Elt F)),
    binary main_v50 main_v65 main_v66 (cmpi .slt : (⟨S1700000, .i32⟩ : BufTy).Contents (Elt F) → (⟨S1700000, .i32⟩ : BufTy).Contents (Elt F) → (⟨S1700000, .i1⟩ : BufTy).Contents (Elt F)),
    nullary main_c_15 (constantI S_ 32 100000#32),
    unary main_c_15 main_v67 (broadcastInDim S1700000 ![] bcast_S_S1700000 : (⟨S_, .i32⟩ : BufTy).Contents (Elt F) → (⟨S1700000, .i32⟩ : BufTy).Contents (Elt F)),
    binary main_v50 main_v67 main_v68 (addi : (⟨S1700000, .i32⟩ : BufTy).Contents (Elt F) → (⟨S1700000, .i32⟩ : BufTy).Contents (Elt F) → (⟨S1700000, .i32⟩ : BufTy).Contents (Elt F)),
    ternary main_v66 main_v68 main_v50 main_v69 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v69 main_v70 (broadcastInDim S1700000x1 ![0] bcast_S1700000_S1700000x1_0 : (⟨S1700000, .i32⟩ : BufTy).Contents (Elt F) → (⟨S1700000x1, .i32⟩ : BufTy).Contents (Elt F)),
    binary main_v57 main_v70 main_v71 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v64 main_v71 main_v72 (mulf : (⟨S1700000, .f32⟩ : BufTy).Contents (Elt F) → (⟨S1700000, .f32⟩ : BufTy).Contents (Elt F) → (⟨S1700000, .f32⟩ : BufTy).Contents (Elt F)),
    nullary main_c_16 (constantI S_ 32 0#32),
    unary main_c_16 main_v73 (broadcastInDim S1700000 ![] bcast_S_S1700000 : (⟨S_, .i32⟩ : BufTy).Contents (Elt F) → (⟨S1700000, .i32⟩ : BufTy).Contents (Elt F)),
    binary main_v49 main_v73 main_v74 (cmpi .slt : (⟨S1700000, .i32⟩ : BufTy).Contents (Elt F) → (⟨S1700000, .i32⟩ : BufTy).Contents (Elt F) → (⟨S1700000, .i1⟩ : BufTy).Contents (Elt F)),
    nullary main_c_17 (constantI S_ 32 100000#32),
    unary main_c_17 main_v75 (broadcastInDim S1700000 ![] bcast_S_S1700000 : (⟨S_, .i32⟩ : BufTy).Contents (Elt F) → (⟨S1700000, .i32⟩ : BufTy).Contents (Elt F)),
    binary main_v49 main_v75 main_v76 (addi : (⟨S1700000, .i32⟩ : BufTy).Contents (Elt F) → (⟨S1700000, .i32⟩ : BufTy).Contents (Elt F) → (⟨S1700000, .i32⟩ : BufTy).Contents (Elt F)),
    ternary main_v74 main_v76 main_v49 main_v77 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v77 main_v78 (broadcastInDim S1700000x1 ![0] bcast_S1700000_S1700000x1_0 : (⟨S1700000, .i32⟩ : BufTy).Contents (Elt F) → (⟨S1700000x1, .i32⟩ : BufTy).Contents (Elt F)),
    binary main_v47 main_v78 main_v79 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v72 main_v80 (broadcastInDim S1700000x1 ![0] bcast_S1700000_S1700000x1_0 : (⟨S1700000, .f32⟩ : BufTy).Contents (Elt F) → (⟨S1700000x1, .f32⟩ : BufTy).Contents (Elt F)),
    unary main_v80 main_v81 (broadcastInDim S1700000x128 ![0, 1] bcast_S1700000x1_S1700000x128_0_1 : (⟨S1700000x1, .f32⟩ : BufTy).Contents (Elt F) → (⟨S1700000x128, .f32⟩ : BufTy).Contents (Elt F)),
    binary main_v79 main_v81 main_v82 (mulf : (⟨S1700000x128, .f32⟩ : BufTy).Contents (Elt F) → (⟨S1700000x128, .f32⟩ : BufTy).Contents (Elt F) → (⟨S1700000x128, .f32⟩ : BufTy).Contents (Elt F)),
    nullary main_cst_18 (constant S_ .f32 0x00000000#32),
    unary main_cst_18 main_v83 (broadcastInDim S100000x128 ![] bcast_S_S100000x128 : (⟨S_, .f32⟩ : BufTy).Contents (Elt F) → (⟨S100000x128, .f32⟩ : BufTy).Contents (Elt F)),
    unary main_v50 main_v84 (broadcastInDim S1700000x1 ![0] bcast_S1700000_S1700000x1_0 : (⟨S1700000, .i32⟩ : BufTy).Contents (Elt F) → (⟨S1700000x1, .i32⟩ : BufTy).Contents (Elt F)),
    ternary main_v83 main_v84 main_v82 main_v85 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg6 main_v86 (broadcastInDim S1x128 ![1] bcast_S128_S1x128_1 : (⟨S128, .f32⟩ : BufTy).Contents (Elt F) → (⟨S1x128, .f32⟩ : BufTy).Contents (Elt F)),
    unary main_v86 main_v87 (broadcastInDim S100000x128 ![0, 1] bcast_S1x128_S100000x128_0_1 : (⟨S1x128, .f32⟩ : BufTy).Contents (Elt F) → (⟨S100000x128, .f32⟩ : BufTy).Contents (Elt F)),
    binary main_v85 main_v87 main_v88 (addf : (⟨S100000x128, .f32⟩ : BufTy).Contents (Elt F) → (⟨S100000x128, .f32⟩ : BufTy).Contents (Elt F) → (⟨S100000x128, .f32⟩ : BufTy).Contents (Elt F)),
    nullary main_cst_19 (constant S_ .f32 0x3C23D70A#32),
    TRef.nullary main_call1.cst (constant S_ .f32 0x00000000#32),
    TRef.unary main_call1.cst main_call1.v0 (broadcastInDim S100000x128 ![] bcast_S_S100000x128),
    TRef.binary (.of main_v88) main_call1.v0 main_call1.v1 (cmpf .oge),
    TRef.unary (.of main_cst_19) main_call1.v2 id,
    TRef.unary main_call1.v2 main_call1.v3 (broadcastInDim S100000x128 ![] bcast_S_S100000x128),
    TRef.binary main_call1.v3 (.of main_v88) main_call1.v4 mulf,
    TRef.ternary main_call1.v1 (.of main_v88) main_call1.v4 main_call1.call0.v0 select,
    nullary main_cst_20 (constant S_ .f32 0x00000000#32),
    unary main_cst_20 main_v90 (broadcastInDim S512x128 ![] bcast_S_S512x128 : (⟨S_, .f32⟩ : BufTy).Contents (Elt F) → (⟨S512x128, .f32⟩ : BufTy).Contents (Elt F)),
    unary main_arg2 main_v91 (broadcastInDim S100000x1 ![0] bcast_S100000_S100000x1_0 : (⟨S100000, .i32⟩ : BufTy).Contents (Elt F) → (⟨S100000x1, .i32⟩ : BufTy).Contents (Elt F)),
    ternary main_v90 main_v91 main_v89 main_v92 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),
    nullary main_cst_21 (constant S_ .f32 0x3F800000#32),
    unary main_cst_21 main_v93 (broadcastInDim S100000 ![] bcast_S_S100000 : (⟨S_, .f32⟩ : BufTy).Contents (Elt F) → (⟨S100000, .f32⟩ : BufTy).Contents (Elt F)),
    nullary main_cst_22 (constant S_ .f32 0x00000000#32),
    unary main_cst_22 main_v94 (broadcastInDim S512 ![] bcast_S_S512 : (⟨S_, .f32⟩ : BufTy).Contents (Elt F) → (⟨S512, .f32⟩ : BufTy).Contents (Elt F)),
    unary main_arg2 main_v95 (broadcastInDim S100000x1 ![0] bcast_S100000_S100000x1_0 : (⟨S100000, .i32⟩ : BufTy).Contents (Elt F) → (⟨S100000x1, .i32⟩ : BufTy).Contents (Elt F)),
    ternary main_v94 main_v95 main_v93 main_v96 ((fun x i u => Host.scatterAdd scatter_S512_S100000x1_S100000_n_0_0_1 x i u) : (⟨S512, .f32⟩ : BufTy).Contents (Elt F) → (⟨S100000x1, .i32⟩ : BufTy).Contents (Elt F) → (⟨S100000, .f32⟩ : BufTy).Contents (Elt F) → (⟨S512, .f32⟩ : BufTy).Contents (Elt F)),
    nullary main_cst_23 (constant S_ .f32 0x3F800000#32),
    unary main_cst_23 main_v97 (broadcastInDim S512 ![] bcast_S_S512 : (⟨S_, .f32⟩ : BufTy).Contents (Elt F) → (⟨S512, .f32⟩ : BufTy).Contents (Elt F)),
    binary main_v96 main_v97 main_v98 (maximumf : (⟨S512, .f32⟩ : BufTy).Contents (Elt F) → (⟨S512, .f32⟩ : BufTy).Contents (Elt F) → (⟨S512, .f32⟩ : BufTy).Contents (Elt F)),
    unary main_v98 main_v99 (broadcastInDim S512x1 ![0] bcast_S512_S512x1_0 : (⟨S512, .f32⟩ : BufTy).Contents (Elt F) → (⟨S512x1, .f32⟩ : BufTy).Contents (Elt F)),
    unary main_v99 main_v100 (broadcastInDim S512x128 ![0, 1] bcast_S512x1_S512x128_0_1 : (⟨S512x1, .f32⟩ : BufTy).Contents (Elt F) → (⟨S512x128, .f32⟩ : BufTy).Contents (Elt F)),
    binary main_v92 main_v100 main_v101 (Host.divf : (⟨S512x128, .f32⟩ : BufTy).Contents (Elt F) → (⟨S512x128, .f32⟩ : BufTy).Contents (Elt F) → (⟨S512x128, .f32⟩ : BufTy).Contents (Elt F)),
    binary main_v101 main_arg7 main_v102 ((fun l r => Host.dotGeneral dot_S512x128_S128x64_S512x64_1_0_0_1_n_n none l r) : (⟨S512x128, .f32⟩ : BufTy).Contents (Elt F) → (⟨S128x64, .f32⟩ : BufTy).Contents (Elt F) → (⟨S512x64, .f32⟩ : BufTy).Contents (Elt F)),
    unary main_arg8 main_v103 (broadcastInDim S1x64 ![1] bcast_S64_S1x64_1 : (⟨S64, .f32⟩ : BufTy).Contents (Elt F) → (⟨S1x64, .f32⟩ : BufTy).Contents (Elt F)),
    unary main_v103 main_v104 (broadcastInDim S512x64 ![0, 1] bcast_S1x64_S512x64_0_1 : (⟨S1x64, .f32⟩ : BufTy).Contents (Elt F) → (⟨S512x64, .f32⟩ : BufTy).Contents (Elt F)),
    binary main_v102 main_v104 main_v105 (addf : (⟨S512x64, .f32⟩ : BufTy).Contents (Elt F) → (⟨S512x64, .f32⟩ : BufTy).Contents (Elt F) → (⟨S512x64, .f32⟩ : BufTy).Contents (Elt F)),
    nullary main_cst_24 (constant S_ .f32 0x3C23D70A#32),
    TRef.nullary main_call2.cst (constant S_ .f32 0x00000000#32),
    TRef.unary main_call2.cst main_call2.v0 (broadcastInDim S512x64 ![] bcast_S_S512x64),
    TRef.binary (.of main_v105) main_call2.v0 main_call2.v1 (cmpf .oge),
    TRef.unary (.of main_cst_24) main_call2.v2 id,
    TRef.unary main_call2.v2 main_call2.v3 (broadcastInDim S512x64 ![] bcast_S_S512x64),
    TRef.binary main_call2.v3 (.of main_v105) main_call2.v4 mulf,
    TRef.ternary main_call2.v1 (.of main_v105) main_call2.v4 main_call2.call0.v0 select,
    binary main_v106 main_arg9 main_v107 ((fun l r => Host.dotGeneral dot_S512x64_S64x1_S512x1_1_0_0_1_n_n none l r) : (⟨S512x64, .f32⟩ : BufTy).Contents (Elt F) → (⟨S64x1, .f32⟩ : BufTy).Contents (Elt F) → (⟨S512x1, .f32⟩ : BufTy).Contents (Elt F)),
    unary main_arg10 main_v108 (broadcastInDim S1x1 ![1] bcast_S1_S1x1_1 : (⟨S1, .f32⟩ : BufTy).Contents (Elt F) → (⟨S1x1, .f32⟩ : BufTy).Contents (Elt F)),
    unary main_v108 main_v109 (broadcastInDim S512x1 ![0, 1] bcast_S1x1_S512x1_0_1 : (⟨S1x1, .f32⟩ : BufTy).Contents (Elt F) → (⟨S512x1, .f32⟩ : BufTy).Contents (Elt F)),
    binary main_v107 main_v109 main_v110 (addf : (⟨S512x1, .f32⟩ : BufTy).Contents (Elt F) → (⟨S512x1, .f32⟩ : BufTy).Contents (Elt F) → (⟨S512x1, .f32⟩ : BufTy).Contents (Elt F)) ]

end Cert.ReferenceIdeal.RefRun

end
-- ==== Proof.RefRun.lean ====
/- The reference's @main as a straight line of its host operations (the list is the imported table), and its run:
   every weakly fair execution ends with each TensorCore buffer at the operations' fold over the launch contents. -/
import proofs.«164700_j30726196035937_1_alg».proof.Proof.RefOps
import proofs.«164700_j30726196035937_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- 156 binds re-associated: the rewrite under the chain recurses once per statement
set_option maxRecDepth 16384 in
/-- @main is that straight line: its three windows and the functions' definitions unfolded at their calls
    (and the nested select's inside them), both sides are one chain of the same steps once sequencing is
    reassociated and a callee's closing return absorbed. -/
theorem main_eq (c : Dev nD) : main (F := F) c = seq ops := by
  simp only [main, main_part0, main_part1, main_part2, fn_leaky_relu.body, fn_leaky_relu_0.body, fn_where.body, fn_where_1.body,
    seq, bind_assoc, pure_bind]

/-- The signature scopes no buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- Every operation touches TensorCore references only: each entry is one of the five builders (a typed-reference
    builder unfolds to the plain one at the references it carries), and each builder's buffers are such references. -/
theorem ops_sub : (ops : List (HloOp τ sig (Elt F))).Forall fun op => op.bufs ⊆ tcRefs τ sig := by
  simp only [List.Forall, nullary_bufs_sub, unary_bufs_sub, binary_bufs_sub, ternary_bufs_sub, reshape_bufs_sub, and_self]

/-- No operation allocates a buffer: each determines what it writes. -/
theorem ops_fresh : (ops : List (HloOp τ sig (Elt F))).Forall fun op => op.fresh = ∅ := by
  simp only [List.Forall]; repeat' constructor

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ op h => (List.forall_iff_forall_mem.mp ops_fresh) op h)

end Cert.ReferenceIdeal.RefRun

end
-- ==== Proof.RefRead.lean ====
/- The reference's run read back: its result buffer holds the network of the argument arrays, and every argument
   array is what it was. -/
import proofs.«164700_j30726196035937_1_alg».proof.Proof.RefRun
import proofs.«164700_j30726196035937_1_alg».proof.Proof.Glue

noncomputable section

namespace Cert.ReferenceIdeal.RefRead

open Cert.ReferenceIdeal Cert.ReferenceIdeal.Gen Idealize.ShloMosaic Idealize.ShloMosaic.TcCoe Idealize.SL.Sem Idealize.ShloMosaic.StableHlo

variable {F : FTy → Type} [FloatOps F]

/-- Two arrays laid end to end along an axis: the two-operand case of concatenation, the operands as arguments of
    their own (in a list of shape-tagged arrays they are not rewritten in place, the shape condition being stated
    over the list). -/
def cat2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

theorem cat2_eq {α : Type} (t : Shape) (a : Fin t.rank) (s₁ s₂ : Shape) (h : Shape.Concatenates [s₁, s₂] t a)
    (x : s₁.Idx → α) (y : s₂.Idx → α) : concatenate t a [⟨s₁, x⟩, ⟨s₂, y⟩] h = cat2 t a s₁ s₂ h x y := rfl

-- the fold over 156 operations is unrolled and rewritten in one pass, and the closing comparison walks the whole term
attribute [local irreducible] Host.gather Host.scatterAdd concatenate in
set_option maxRecDepth 16384 in
set_option maxHeartbeats 8000000 in
/-- The reference's result, read back: the network of the argument arrays, each bias vector laid out as a row.
    One pass unrolls the fold and rewrites each operation's result, at its own buffer to its function's value and
    at any other buffer to what was there (two buffers told apart as references). What is left is the network's
    definition unfolded, up to the typed references' casts around the three inlined calls (the identity at these
    references), the identity on the converted slope constant, a buffer's shape computed from the signature, and
    eta: all by computation. Gather, scatter-add and concatenation stay folded meanwhile: the equation never looks
    inside them. -/
theorem result_eq (V : Valuation τ sig (Elt F)) :
    after (Cert.ReferenceIdeal.RefRun.ops (F := F)) V (main_v110 : DevRef τ sig)
      = Cert.Glue.net (V (main_arg0 : DevRef τ sig)) (V (main_arg1 : DevRef τ sig)) (V (main_arg2 : DevRef τ sig))
          (V (main_arg3 : DevRef τ sig)) (broadcastInDim S1x128 ![1] Facts₀.bcast_S128_S1x128_1 (V (main_arg4 : DevRef τ sig)))
          (V (main_arg5 : DevRef τ sig)) (broadcastInDim S1x128 ![1] Facts₀.bcast_S128_S1x128_1 (V (main_arg6 : DevRef τ sig)))
          (V (main_arg7 : DevRef τ sig)) (broadcastInDim S1x64 ![1] Facts₀.bcast_S64_S1x64_1 (V (main_arg8 : DevRef τ sig)))
          (V (main_arg9 : DevRef τ sig)) (broadcastInDim S1x1 ![1] Facts₀.bcast_S1_S1x1_1 (V (main_arg10 : DevRef τ sig))) := by
  simp (disch := decide) only [after_cons, after_nil, cat2_eq,
      nullary_result', unary_result', binary_result', ternary_result', reshape_result',
      nullary_result_ne', unary_result_ne', binary_result_ne', ternary_result_ne', reshape_result_ne']
  rfl

/-- The eleven argument buffers. -/
abbrev argRefs : List (Ref sig .tc) :=
  [main_arg0, main_arg1, main_arg2, main_arg3, main_arg4, main_arg5, main_arg6, main_arg7, main_arg8, main_arg9, main_arg10]

/-- No operation writes an argument: each writes one buffer, a value's own, which is none of the eleven. -/
theorem args_unwritten :
    (Cert.ReferenceIdeal.RefRun.ops (F := F)).Forall fun op => ∀ r ∈ argRefs, (r : DevRef τ sig) ∉ op.writes := by
  simp only [List.Forall, nullary_writes, unary_writes, binary_writes, ternary_writes, reshape_writes, Finset.mem_singleton]
  repeat' constructor
  all_goals (intro r hr; refine devRef_ne_of_ne ?_; revert r; decide)

/-- Argument 0 (the network's `x`) is left as it was: no operation writes it. -/
theorem arg0_eq (V : Valuation τ sig (Elt F)) :
    after (Cert.ReferenceIdeal.RefRun.ops (F := F)) V (main_arg0 : DevRef τ sig) = V (main_arg0 : DevRef τ sig) :=
  after_of_forall_not_mem _ V fun op hop => List.forall_iff_forall_mem.mp args_unwritten op hop main_arg0 (by decide)

/-- Argument 1 (the network's `ei`) is left as it was: no operation writes it. -/
theorem arg1_eq (V : Valuation τ sig (Elt F)) :
    after (Cert.ReferenceIdeal.RefRun.ops (F := F)) V (main_arg1 : DevRef τ sig) = V (main_arg1 : DevRef τ sig) :=
  after_of_forall_not_mem _ V fun op hop => List.forall_iff_forall_mem.mp args_unwritten op hop main_arg1 (by decide)

/-- Argument 2 (the network's `batch`) is left as it was: no operation writes it. -/
theorem arg2_eq (V : Valuation τ sig (Elt F)) :
    after (Cert.ReferenceIdeal.RefRun.ops (F := F)) V (main_arg2 : DevRef τ sig) = V (main_arg2 : DevRef τ sig) :=
  after_of_forall_not_mem _ V fun op hop => List.forall_iff_forall_mem.mp args_unwritten op hop main_arg2 (by decide)

/-- Argument 3 (the network's `w1`) is left as it was: no operation writes it. -/
theorem arg3_eq (V : Valuation τ sig (Elt F)) :
    after (Cert.ReferenceIdeal.RefRun.ops (F := F)) V (main_arg3 : DevRef τ sig) = V (main_arg3 : DevRef τ sig) :=
  after_of_forall_not_mem _ V fun op hop => List.forall_iff_forall_mem.mp args_unwritten op hop main_arg3 (by decide)

/-- Argument 4 (the vector the network's bias row `b1` is made from) is left as it was: no operation writes it. -/
theorem arg4_eq (V : Valuation τ sig (Elt F)) :
    after (Cert.ReferenceIdeal.RefRun.ops (F := F)) V (main_arg4 : DevRef τ sig) = V (main_arg4 : DevRef τ sig) :=
  after_of_forall_not_mem _ V fun op hop => List.forall_iff_forall_mem.mp args_unwritten op hop main_arg4 (by decide)

/-- Argument 5 (the network's `w2`) is left as it was: no operation writes it. -/
theorem arg5_eq (V : Valuation τ sig (Elt F)) :
    after (Cert.ReferenceIdeal.RefRun.ops (F := F)) V (main_arg5 : DevRef τ sig) = V (main_arg5 : DevRef τ sig) :=
  after_of_forall_not_mem _ V fun op hop => List.forall_iff_forall_mem.mp args_unwritten op hop main_arg5 (by decide)

/-- Argument 6 (the vector the network's bias row `b2` is made from) is left as it was: no operation writes it. -/
theorem arg6_eq (V : Valuation τ sig (Elt F)) :
    after (Cert.ReferenceIdeal.RefRun.ops (F := F)) V (main_arg6 : DevRef τ sig) = V (main_arg6 : DevRef τ sig) :=
  after_of_forall_not_mem _ V fun op hop => List.forall_iff_forall_mem.mp args_unwritten op hop main_arg6 (by decide)

/-- Argument 7 (the network's `w3`) is left as it was: no operation writes it. -/
theorem arg7_eq (V : Valuation τ sig (Elt F)) :
    after (Cert.ReferenceIdeal.RefRun.ops (F := F)) V (main_arg7 : DevRef τ sig) = V (main_arg7 : DevRef τ sig) :=
  after_of_forall_not_mem _ V fun op hop => List.forall_iff_forall_mem.mp args_unwritten op hop main_arg7 (by decide)

/-- Argument 8 (the vector the network's bias row `b3` is made from) is left as it was: no operation writes it. -/
theorem arg8_eq (V : Valuation τ sig (Elt F)) :
    after (Cert.ReferenceIdeal.RefRun.ops (F := F)) V (main_arg8 : DevRef τ sig) = V (main_arg8 : DevRef τ sig) :=
  after_of_forall_not_mem _ V fun op hop => List.forall_iff_forall_mem.mp args_unwritten op hop main_arg8 (by decide)

/-- Argument 9 (the network's `w4`) is left as it was: no operation writes it. -/
theorem arg9_eq (V : Valuation τ sig (Elt F)) :
    after (Cert.ReferenceIdeal.RefRun.ops (F := F)) V (main_arg9 : DevRef τ sig) = V (main_arg9 : DevRef τ sig) :=
  after_of_forall_not_mem _ V fun op hop => List.forall_iff_forall_mem.mp args_unwritten op hop main_arg9 (by decide)

/-- Argument 10 (the vector the network's bias row `b4` is made from) is left as it was: no operation writes it. -/
theorem arg10_eq (V : Valuation τ sig (Elt F)) :
    after (Cert.ReferenceIdeal.RefRun.ops (F := F)) V (main_arg10 : DevRef τ sig) = V (main_arg10 : DevRef τ sig) :=
  after_of_forall_not_mem _ V fun op hop => List.forall_iff_forall_mem.mp args_unwritten op hop main_arg10 (by decide)

end Cert.ReferenceIdeal.RefRead

end
-- ==== Proof.RefNet.lean ====
/-
  The idealized reference's run: its result is the network of the launch arrays.

  The reference is a straight line of host operations; its run ends with every buffer at the operations' fold over
  the launch contents, and the fold at the result buffer is `net` of the argument arrays, each bias vector laid out
  as a row by a broadcast; no operation writes an argument.
-/
import proofs.«164700_j30726196035937_1_alg».proof.Proof.RefRead

noncomputable section

namespace Cert.ReferenceIdeal.Net

open Cert.ReferenceIdeal Cert.ReferenceIdeal.Gen Idealize.ShloMosaic Idealize.ShloMosaic.TcCoe Idealize.SL.Sem Idealize.ShloMosaic.StableHlo

variable {F : FTy → Type} [FloatOps F] (m : (ℓ : Loc nD τ sig) → Buf (Elt F) ℓ) (ρ : Dev nD → PrngReg)

/-- THE RUN: every weakly fair execution terminates, the result the network of the launch arrays, the arguments
    unchanged. -/
theorem run_net : θ_run defs (onTc (τ := τ) (main (F := F))) ⟨m, fun _ => 0, ρ⟩ (fun r => ∀ c : Dev nD,
      r.2.mem ((c.tc : Thread nD τ).loc main_v110)
        = Cert.Glue.net (m ((c.tc : Thread nD τ).loc main_arg0)) (m ((c.tc : Thread nD τ).loc main_arg1)) (m ((c.tc : Thread nD τ).loc main_arg2)) (m ((c.tc : Thread nD τ).loc main_arg3))
          (broadcastInDim S1x128 ![1] Facts₀.bcast_S128_S1x128_1 (m ((c.tc : Thread nD τ).loc main_arg4)))
          (m ((c.tc : Thread nD τ).loc main_arg5))
          (broadcastInDim S1x128 ![1] Facts₀.bcast_S128_S1x128_1 (m ((c.tc : Thread nD τ).loc main_arg6)))
          (m ((c.tc : Thread nD τ).loc main_arg7))
          (broadcastInDim S1x64 ![1] Facts₀.bcast_S64_S1x64_1 (m ((c.tc : Thread nD τ).loc main_arg8)))
          (m ((c.tc : Thread nD τ).loc main_arg9))
          (broadcastInDim S1x1 ![1] Facts₀.bcast_S1_S1x1_1 (m ((c.tc : Thread nD τ).loc main_arg10)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
      ⟨(h c main_v110).trans (Cert.ReferenceIdeal.RefRead.result_eq (launchContents m c)),
       (h c main_arg0).trans (Cert.ReferenceIdeal.RefRead.arg0_eq (launchContents m c)),
       (h c main_arg1).trans (Cert.ReferenceIdeal.RefRead.arg1_eq (launchContents m c)),
       (h c main_arg2).trans (Cert.ReferenceIdeal.RefRead.arg2_eq (launchContents m c)),
       (h c main_arg3).trans (Cert.ReferenceIdeal.RefRead.arg3_eq (launchContents m c)),
       (h c main_arg4).trans (Cert.ReferenceIdeal.RefRead.arg4_eq (launchContents m c)),
       (h c main_arg5).trans (Cert.ReferenceIdeal.RefRead.arg5_eq (launchContents m c)),
       (h c main_arg6).trans (Cert.ReferenceIdeal.RefRead.arg6_eq (launchContents m c)),
       (h c main_arg7).trans (Cert.ReferenceIdeal.RefRead.arg7_eq (launchContents m c)),
       (h c main_arg8).trans (Cert.ReferenceIdeal.RefRead.arg8_eq (launchContents m c)),
       (h c main_arg9).trans (Cert.ReferenceIdeal.RefRead.arg9_eq (launchContents m c)),
       (h c main_arg10).trans (Cert.ReferenceIdeal.RefRead.arg10_eq (launchContents m c))⟩)
    (Cert.ReferenceIdeal.RefRun.run_main m ρ)

end Cert.ReferenceIdeal.Net

end
-- ==== Proof.lean ====
/-
  A graph network — two graph-convolution layers, a mean pool over graphs and a two-layer perceptron — computed two
  ways: by a program that runs its dense pieces (the two dense transforms, the bias and leaky rectifier after each
  aggregation, the perceptron) in four pipelined kernel regions among host operations, and by a reference made of
  host operations only.

  At the exact values a change of float format is the identity and a matrix product is the plain sum, so each region
  is a whole-array function spelt with the reference's own operations (Proof/Spec.lean; one module per region shows
  that the region's blocks tile its result with that function).  A region then acts on the buffers as one host
  operation, the contents the last region is entered with are one line of host operations read back from the launch
  arrays (Proof/KernelLine.lean, Proof/KernelRead.lean), and the kernel's result is `Cert.Glue.net` of the arguments
  (Proof/KernelNet.lean).  The reference's run, written as the list of its operations, reads back to the same
  `net` (Proof/RefRun.lean, Proof/RefRead.lean, Proof/RefNet.lean).  The only difference left is how a bias vector is
  made a row — a reshape against a broadcast — and the two rows are the same array (Proof/BiasRow.lean).  No law of
  arithmetic is used beyond that: the two sides perform the same sums in the same grouping, so the precondition is
  never opened.

  The frames of the two kernel programs are the generated ones; the reference's frame is its run with the result
  dropped; the idealization rewrote nothing, so `preserves` is trivial.
-/
import proofs.«164700_j30726196035937_1_alg».proof.Defs
import proofs.«164700_j30726196035937_1_alg».proof.Proof.Gen.Kernel
import proofs.«164700_j30726196035937_1_alg».proof.Proof.Gen.Kernel.Frame
import proofs.«164700_j30726196035937_1_alg».proof.Proof.Gen.KernelIdeal
import proofs.«164700_j30726196035937_1_alg».proof.Proof.Gen.KernelIdeal.Frame
import proofs.«164700_j30726196035937_1_alg».proof.Proof.Gen.ReferenceIdeal
import proofs.«164700_j30726196035937_1_alg».proof.Proof.Gen.Pre_finite_inputs
import proofs.«164700_j30726196035937_1_alg».proof.Proof.KernelNet
import proofs.«164700_j30726196035937_1_alg».proof.Proof.RefNet
import Idealize.ShloMosaic.Adequacy
import Idealize.ShloMosaic.Init

noncomputable section

namespace Cert.Proof

open Idealize.ShloMosaic Idealize.SL.Sem

/-- The word-level kernel's frame: generated. -/
theorem frame_k : Cert.frame_Kernel := fun m ρ _ => Cert.Kernel.Gen.frame m ρ

/-- The idealized kernel's frame: generated. -/
theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Net.run_net (F := Ideal) m ρ)

/-- Both programs end at the network of the argument arrays, and the arrays agree. -/
theorem algebraic : Cert.algebraic_KernelIdeal_ReferenceIdeal := by
  intro m ρ m' ρ' _ hagree
  refine ⟨_, Cert.KernelIdeal.Net.run_net m ρ, ?_⟩
  refine (θ_run Cert.ReferenceIdeal.defs _ _).mono (fun r h c => ⟨(h c).1.trans ?_, (h c).2⟩)
    (Cert.ReferenceIdeal.Net.run_net (F := Ideal) m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
